-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v76)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v76) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x768 : Shape := ⟨2, ![100000, 768]⟩
abbrev S100000x1 : Shape := ⟨2, ![100000, 1]⟩
abbrev S2x1600000 : Shape := ⟨2, ![2, 1600000]⟩
abbrev S1600000 : Shape := ⟨1, ![1600000]⟩
abbrev S768x768 : Shape := ⟨2, ![768, 768]⟩
abbrev S768 : Shape := ⟨1, ![768]⟩
abbrev S770x128 : Shape := ⟨2, ![770, 128]⟩
abbrev S128 : Shape := ⟨1, ![128]⟩
abbrev S128x5 : Shape := ⟨2, ![128, 5]⟩
abbrev S5 : Shape := ⟨1, ![5]⟩
abbrev S_ : Shape := ⟨0, ![]⟩

class Facts : Prop where
  bcast_S_S100000x768 : S_.BroadcastsInDim S100000x768 (![] : Fin 0 → Fin S100000x768.rank)
  reducesTo_S100000x768_S_d0_1 : S100000x768.ReducesTo [0, 1] S_
  h_S_ : 0 < S_.numel
  bcast_S_S100000x1 : S_.BroadcastsInDim S100000x1 (![] : Fin 0 → Fin S100000x1.rank)
  reducesTo_S100000x1_S_d0_1 : S100000x1.ReducesTo [0, 1] S_
  bcast_S_S1600000 : S_.BroadcastsInDim S1600000 (![] : Fin 0 → Fin S1600000.rank)
  reducesTo_S1600000_S_d0 : S1600000.ReducesTo [0] S_
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S770x128 : S_.BroadcastsInDim S770x128 (![] : Fin 0 → Fin S770x128.rank)
  reducesTo_S770x128_S_d0_1 : S770x128.ReducesTo [0, 1] S_
  bcast_S_S128 : S_.BroadcastsInDim S128 (![] : Fin 0 → Fin S128.rank)
  reducesTo_S128_S_d0 : S128.ReducesTo [0] S_
  bcast_S_S128x5 : S_.BroadcastsInDim S128x5 (![] : Fin 0 → Fin S128x5.rank)
  reducesTo_S128x5_S_d0_1 : S128x5.ReducesTo [0, 1] S_
  bcast_S_S5 : S_.BroadcastsInDim S5 (![] : Fin 0 → Fin S5.rank)
  reducesTo_S5_S_d0 : S5.ReducesTo [0] S_

variable [Facts]

def fn_part2 {F : FTy → Type} [FloatOps F] (main_arg8 : FVec F S128 .f32) (main_arg9 : FVec F S128x5 .f32) (main_arg10 : FVec F S5 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x5 .f32 := Host.absf main_arg9
  let main_cst_14 : FVec F S_ .f32 := constant S_ .f32 0x7F800000#32
  let main_v40 : FVec F S128x5 .f32 := broadcastInDim S128x5 ![] bcast_S_S128x5 main_cst_14
  let main_v41 : IVec S128x5 1 := cmpf .olt main_v39 main_v40
  let main_c_15 : IVec S_ 1 := constantI S_ 1 1#1
  let main_v42 : IVec S_ 1 := (fun x v => Host.reduce IntOp.andi x v reducesTo_S128x5_S_d0_1 h_S_) main_v41 main_c_15
  let main_v43 : IVec S_ 1 := andi main_v38 main_v42
  let main_v44 : FVec F S5 .f32 := Host.absf main_arg10
  let main_cst_16 : FVec F S_ .f32 := constant S_ .f32 0x7F800000#32
  let main_v45 : FVec F S5 .f32 := broadcastInDim S5 ![] bcast_S_S5 main_cst_16
  let main_v46 : IVec S5 1 := cmpf .olt main_v44 main_v45
  let main_c_17 : IVec S_ 1 := constantI S_ 1 1#1
  let main_v47 : IVec S_ 1 := (fun x v => Host.reduce IntOp.andi x v reducesTo_S5_S_d0 h_S_) main_v46 main_c_17
  let main_v48 : IVec S_ 1 := andi main_v43 main_v47
  main_v48

def fn_part1 {F : FTy → Type} [FloatOps F] (main_arg5 : FVec F S768x768 .f32) (main_arg6 : FVec F S768 .f32) (main_arg7 : FVec F S770x128 .f32) (main_arg8 : FVec F S128 .f32) (main_arg9 : FVec F S128x5 .f32) (main_arg10 : FVec F S5 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S768x768 .f32 := Host.absf main_arg5
  let main_cst_6 : FVec F S_ .f32 := constant S_ .f32 0x7F800000#32
  let main_v20 : FVec F S768x768 .f32 := broadcastInDim S768x768 ![] bcast_S_S768x768 main_cst_6
  let main_v21 : IVec S768x768 1 := cmpf .olt main_v19 main_v20
  let main_c_7 : IVec S_ 1 := constantI S_ 1 1#1
  let main_v22 : IVec S_ 1 := (fun x v => Host.reduce IntOp.andi x v reducesTo_S768x768_S_d0_1 h_S_) main_v21 main_c_7
  let main_v23 : IVec S_ 1 := andi main_v18 main_v22
  let main_v24 : FVec F S768 .f32 := Host.absf main_arg6
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  let main_v29 : FVec F S770x128 .f32 := Host.absf main_arg7
  let main_cst_10 : FVec F S_ .f32 := constant S_ .f32 0x7F800000#32
  let main_v30 : FVec F S770x128 .f32 := broadcastInDim S770x128 ![] bcast_S_S770x128 main_cst_10
  let main_v31 : IVec S770x128 1 := cmpf .olt main_v29 main_v30
  let main_c_11 : IVec S_ 1 := constantI S_ 1 1#1
  let main_v32 : IVec S_ 1 := (fun x v => Host.reduce IntOp.andi x v reducesTo_S770x128_S_d0_1 h_S_) main_v31 main_c_11
  let main_v33 : IVec S_ 1 := andi main_v28 main_v32
  fn_part2 (F := F) main_arg8 main_arg9 main_arg10 main_v33

def fn {F : FTy → Type} [FloatOps F] (main_arg0 : FVec F S100000x768 .f32) (main_arg1 : FVec F S100000x1 .f32) (main_arg2 : FVec F S100000x1 .f32) (main_arg3 : IVec S2x1600000 32) (main_arg4 : FVec F S1600000 .f32) (main_arg5 : FVec F S768x768 .f32) (main_arg6 : FVec F S768 .f32) (main_arg7 : FVec F S770x128 .f32) (main_arg8 : FVec F S128 .f32) (main_arg9 : FVec F S128x5 .f32) (main_arg10 : FVec F S5 .f32) : IVec S_ 1 :=
  let main_v0 : FVec F S100000x768 .f32 := Host.absf main_arg0
  let main_cst : FVec F S_ .f32 := constant S_ .f32 0x7F800000#32
  let main_v1 : FVec F S100000x768 .f32 := broadcastInDim S100000x768 ![] bcast_S_S100000x768 main_cst
  let main_v2 : IVec S100000x768 1 := cmpf .olt main_v0 main_v1
  let main_c : IVec S_ 1 := constantI S_ 1 1#1
  let main_v3 : IVec S_ 1 := (fun x v => Host.reduce IntOp.andi x v reducesTo_S100000x768_S_d0_1 h_S_) main_v2 main_c
  let main_v4 : FVec F S100000x1 .f32 := Host.absf main_arg1
  let main_cst_0 : FVec F S_ .f32 := constant S_ .f32 0x7F800000#32
  let main_v5 : FVec F S100000x1 .f32 := broadcastInDim S100000x1 ![] bcast_S_S100000x1 main_cst_0
  let main_v6 : IVec S100000x1 1 := cmpf .olt main_v4 main_v5
  let main_c_1 : IVec S_ 1 := constantI S_ 1 1#1
  let main_v7 : IVec S_ 1 := (fun x v => Host.reduce IntOp.andi x v reducesTo_S100000x1_S_d0_1 h_S_) main_v6 main_c_1
  let main_v8 : IVec S_ 1 := andi main_v3 main_v7
  let main_v9 : FVec F S100000x1 .f32 := Host.absf main_arg2
  let main_cst_2 : FVec F S_ .f32 := constant S_ .f32 0x7F800000#32
  let main_v10 : FVec F S100000x1 .f32 := broadcastInDim S100000x1 ![] bcast_S_S100000x1 main_cst_2
  let main_v11 : IVec S100000x1 1 := cmpf .olt main_v9 main_v10
  let main_c_3 : IVec S_ 1 := constantI S_ 1 1#1
  let main_v12 : IVec S_ 1 := (fun x v => Host.reduce IntOp.andi x v reducesTo_S100000x1_S_d0_1 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg5 main_arg6 main_arg7 main_arg8 main_arg9 main_arg10 main_v13 main_v16
-- ==== Kernel.lean ====
abbrev S100000x768 : Shape := ⟨2, ![100000, 768]⟩
abbrev S100000x1 : Shape := ⟨2, ![100000, 1]⟩
abbrev S2x1600000 : Shape := ⟨2, ![2, 1600000]⟩
abbrev S1600000 : Shape := ⟨1, ![1600000]⟩
abbrev S768x768 : Shape := ⟨2, ![768, 768]⟩
abbrev S768 : Shape := ⟨1, ![768]⟩
abbrev S770x128 : Shape := ⟨2, ![770, 128]⟩
abbrev S128 : Shape := ⟨1, ![128]⟩
abbrev S128x5 : Shape := ⟨2, ![128, 5]⟩
abbrev S5 : Shape := ⟨1, ![5]⟩
abbrev S1x768 : Shape := ⟨2, ![1, 768]⟩
abbrev S768x128 : Shape := ⟨2, ![768, 128]⟩
abbrev S1x128 : Shape := ⟨2, ![1, 128]⟩
abbrev S100000x128 : Shape := ⟨2, ![100000, 128]⟩
abbrev S2000x768 : Shape := ⟨2, ![2000, 768]⟩
abbrev S2000x1 : Shape := ⟨2, ![2000, 1]⟩
abbrev S2000x128 : Shape := ⟨2, ![2000, 128]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x128 : Shape := ⟨2, ![1700000, 128]⟩
abbrev S128x128 : Shape := ⟨2, ![128, 128]⟩
abbrev S100000x5 : Shape := ⟨2, ![100000, 5]⟩
abbrev S1700000x5 : Shape := ⟨2, ![1700000, 5]⟩
abbrev S1x5 : Shape := ⟨2, ![1, 5]⟩

abbrev nBuf : Space → Nat
  | .hbm => 108
  | .vmem => 18
  | .smem => 0
  | _ => 0

abbrev bufTy : (tb : Table) → Fin (tcTables nBuf tb) → BufTy
  | .hbm, ⟨0, _⟩ => ⟨S100000x768, .f32⟩
  | .hbm, ⟨1, _⟩ => ⟨S100000x1, .f32⟩
  | .hbm, ⟨2, _⟩ => ⟨S100000x1, .f32⟩
  | .hbm, ⟨3, _⟩ => ⟨S2x1600000, .i32⟩
  | .hbm, ⟨4, _⟩ => ⟨S1600000, .f32⟩
  | .hbm, ⟨5, _⟩ => ⟨S768x768, .f32⟩
  | .hbm, ⟨6, _⟩ => ⟨S768, .f32⟩
  | .hbm, ⟨7, _⟩ => ⟨S770x128, .f32⟩
  | .hbm, ⟨8, _⟩ => ⟨S128, .f32⟩
  | .hbm, ⟨9, _⟩ => ⟨S128x5, .f32⟩
  | .hbm, ⟨10, _⟩ => ⟨S5, .f32⟩
  | .hbm, ⟨11, _⟩ => ⟨S1x768, .f32⟩
  | .hbm, ⟨12, _⟩ => ⟨S768x768, .bf16⟩
  | .hbm, ⟨13, _⟩ => ⟨S768x128, .f32⟩
  | .hbm, ⟨14, _⟩ => ⟨S768x128, .bf16⟩
  | .hbm, ⟨15, _⟩ => ⟨S1x128, .f32⟩
  | .hbm, ⟨16, _⟩ => ⟨S1x128, .f32⟩
  | .hbm, ⟨17, _⟩ => ⟨S100000x128, .bf16⟩
  | .hbm, ⟨18, _⟩ => ⟨S1x1600000, .i32⟩
  | .hbm, ⟨19, _⟩ => ⟨S1600000, .i32⟩
  | .hbm, ⟨20, _⟩ => ⟨S1x1600000, .i32⟩
  | .hbm, ⟨21, _⟩ => ⟨S1600000, .i32⟩
  | .hbm, ⟨22, _⟩ => ⟨S100000, .i32⟩
  | .hbm, ⟨23, _⟩ => ⟨S1700000, .i32⟩
  | .hbm, ⟨24, _⟩ => ⟨S1700000, .i32⟩
  | .hbm, ⟨25, _⟩ => ⟨S_, .f32⟩
  | .hbm, ⟨26, _⟩ => ⟨S100000, .f32⟩
  | .hbm, ⟨27, _⟩ => ⟨S1700000, .f32⟩
  | .hbm, ⟨28, _⟩ => ⟨S_, .f32⟩
  | .hbm, ⟨29, _⟩ => ⟨S100000, .f32⟩
  | .hbm, ⟨30, _⟩ => ⟨S1700000x1, .i32⟩
  | .hbm, ⟨31, _⟩ => ⟨S100000, .f32⟩
  | .hbm, ⟨32, _⟩ => ⟨S_, .f32⟩
  | .hbm, ⟨33, _⟩ => ⟨S100000, .f32⟩
  | .hbm, ⟨34, _⟩ => ⟨S100000, .i1⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000, .f32⟩
  | .hbm, ⟨59, _⟩ => ⟨S1700000, .f32⟩
  | .hbm, ⟨60, _⟩ => ⟨S_, .i32⟩
  | .hbm, ⟨61, _⟩ => ⟨S1700000, .i32⟩
  | .hbm, ⟨62, _⟩ => ⟨S1700000, .i1⟩
  | .hbm, ⟨63, _⟩ => ⟨S_, .i32⟩
  | .hbm, ⟨64, _⟩ => ⟨S1700000, .i32⟩
  | .hbm, ⟨65, _⟩ => ⟨S1700000, .i32⟩
  | .hbm, ⟨66, _⟩ => ⟨S1700000, .i32⟩
  | .hbm, ⟨67, _⟩ => ⟨S1700000x1, .i32⟩
  | .hbm, ⟨68, _⟩ => ⟨S1700000x128, .bf16⟩
  | .hbm, ⟨69, _⟩ => ⟨S1700000x1, .f32⟩
  | .hbm, ⟨70, _⟩ => ⟨S1700000x128, .f32⟩
  | .hbm, ⟨71, _⟩ => ⟨S1700000x128, .f32⟩
  | .hbm, ⟨72, _⟩ => ⟨S1700000x128, .f32⟩
  | .hbm, ⟨73, _⟩ => ⟨S_, .f32⟩
  | .hbm, ⟨74, _⟩ => ⟨S100000x128, .f32⟩
  | .hbm, ⟨75, _⟩ => ⟨S1700000x1, .i32⟩
  | .hbm, ⟨76, _⟩ => ⟨S100000x128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S_, .f32⟩
  | .hbm, ⟨81, _⟩ => ⟨S100000x128, .f32⟩
  | .hbm, ⟨82, _⟩ => ⟨S100000x128, .f32⟩
  | .hbm, ⟨83, _⟩ => ⟨S_, .i32⟩
  | .hbm, ⟨84, _⟩ => ⟨S_, .f32⟩
  | .hbm, ⟨85, _⟩ => ⟨S128x128, .f32⟩
  | .hbm, ⟨86, _⟩ => ⟨S128x128, .bf16⟩
  | .hbm, ⟨87, _⟩ => ⟨S100000x128, .f32⟩
  | .hbm, ⟨88, _⟩ => ⟨S100000x5, .f32⟩
  | .hbm, ⟨89, _⟩ => ⟨S_, .i32⟩
  | .hbm, ⟨90, _⟩ => ⟨S1700000, .i32⟩
  | .hbm, ⟨91, _⟩ => ⟨S1700000, .i1⟩
  | .hbm, ⟨92, _⟩ => ⟨S_, .i32⟩
  | .hbm, ⟨93, _⟩ => ⟨S1700000, .i32⟩
  | .hbm, ⟨94, _⟩ => ⟨S1700000, .i32⟩
  | .hbm, ⟨95, _⟩ => ⟨S1700000, .i32⟩
  | .hbm, ⟨96, _⟩ => ⟨S1700000x1, .i32⟩
  | .hbm, ⟨97, _⟩ => ⟨S1700000x5, .f32⟩
  | .hbm, ⟨98, _⟩ => ⟨S1700000x1, .f32⟩
  | .hbm, ⟨99, _⟩ => ⟨S1700000x5, .f32⟩
  | .hbm, ⟨100, _⟩ => ⟨S1700000x5, .f32⟩
  | .hbm, ⟨101, _⟩ => ⟨S_, .f32⟩
  | .hbm, ⟨102, _⟩ => ⟨S100000x5, .f32⟩
  | .hbm, ⟨103, _⟩ => ⟨S1700000x1, .i32⟩
  | .hbm, ⟨104, _⟩ => ⟨S100000x5, .f32⟩
  | .hbm, ⟨105, _⟩ => ⟨S1x5, .f32⟩
  | .hbm, ⟨106, _⟩ => ⟨S100000x5, .f32⟩
  | .hbm, ⟨107, _⟩ => ⟨S100000x5, .f32⟩
  | .local _ .vmem, ⟨0, _⟩ => ⟨S2000x768, .f32⟩
  | .local _ .vmem, ⟨1, _⟩ => ⟨S2000x768, .f32⟩
  | .local _ .vmem, ⟨2, _⟩ => ⟨S768x768, .bf16⟩
  | .local _ .vmem, ⟨3, _⟩ => ⟨S1x768, .f32⟩
  | .local _ .vmem, ⟨4, _⟩ => ⟨S768x128, .bf16⟩
  | .local _ .vmem, ⟨5, _⟩ => ⟨S1x128, .f32⟩
  | .local _ .vmem, ⟨6, _⟩ => ⟨S1x128, .f32⟩
  | .local _ .vmem, ⟨7, _⟩ => ⟨S2000x1, .f32⟩
  | .local _ .vmem, ⟨8, _⟩ => ⟨S2000x1, .f32⟩
  | .local _ .vmem, ⟨9, _⟩ => ⟨S2000x1, .f32⟩
  | .local _ .vmem, ⟨10, _⟩ => ⟨S2000x1, .f32⟩
  | .local _ .vmem, ⟨11, _⟩ => ⟨S2000x128, .bf16⟩
  | .local _ .vmem, ⟨12, _⟩ => ⟨S2000x128, .bf16⟩
  | .local _ .vmem, ⟨13, _⟩ => ⟨S2000x128, .f32⟩
  | .local _ .vmem, ⟨14, _⟩ => ⟨S2000x128, .f32⟩
  | .local _ .vmem, ⟨15, _⟩ => ⟨S128x128, .bf16⟩
  | .local _ .vmem, ⟨16, _⟩ => ⟨S2000x128, .f32⟩
  | .local _ .vmem, ⟨17, _⟩ => ⟨S2000x128, .f32⟩
  | _, _ => ⟨S100000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_c : Ref sig .tc := ⟨.hbm, 40, rfl⟩
abbrev main_v23 : Ref sig .tc := ⟨.hbm, 41, rfl⟩
abbrev main_v24 : Ref sig .tc := ⟨.hbm, 42, rfl⟩
abbrev main_c_3 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_c_4 : Ref sig .tc := ⟨.hbm, 50, rfl⟩
abbrev main_v31 : Ref sig .tc := ⟨.hbm, 51, rfl⟩
abbrev main_v32 : Ref sig .tc := ⟨.hbm, 52, rfl⟩
abbrev main_c_5 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_c_6 : Ref sig .tc := ⟨.hbm, 60, rfl⟩
abbrev main_v39 : Ref sig .tc := ⟨.hbm, 61, rfl⟩
abbrev main_v40 : Ref sig .tc := ⟨.hbm, 62, rfl⟩
abbrev main_c_7 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_8 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_call1_cst : Ref sig .tc := ⟨.hbm, 80, rfl⟩
abbrev main_call1_v0 : Ref sig .tc := ⟨.hbm, 81, rfl⟩
abbrev main_v56 : Ref sig .tc := ⟨.hbm, 82, rfl⟩
abbrev main_c_9 : Ref sig .tc := ⟨.hbm, 83, rfl⟩
abbrev main_call2_v0 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_c_10 : Ref sig .tc := ⟨.hbm, 89, rfl⟩
abbrev main_v61 : Ref sig .tc := ⟨.hbm, 90, rfl⟩
abbrev main_v62 : Ref sig .tc := ⟨.hbm, 91, rfl⟩
abbrev main_c_11 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_cst_12 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S2000x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S2000x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  shapeCasts_S768_S1x768 : S768.ShapeCasts S1x768
  bitsLt_bf16_f32 : FTy.bits .bf16 < FTy.bits .f32
  slices_S770x128_S768x128_0_0 : S770x128.Slices ![0, 0] S768x128
  slices_S770x128_S1x128_768_0 : S770x128.Slices ![768, 0] S1x128
  slices_S770x128_S1x128_769_0 : S770x128.Slices ![769, 0] S1x128
  inb_S2000x768_S2000x768_0_0 : ∀ a, (![0, 0] : Fin 2 → Nat) a + S2000x768.size a ≤ S2000x768.size a
  h_S2000x768 : 0 < S2000x768.numel
  inb_S768x768_S768x768_0_0 : ∀ a, (![0, 0] : Fin 2 → Nat) a + S768x768.size a ≤ S768x768.size a
  h_S768x768 : 0 < S768x768.numel
  shapeCasts_S768x768_S768x768 : S768x768.ShapeCasts S768x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  inb_S768x128_S768x128_0_0 : ∀ a, (![0, 0] : Fin 2 → Nat) a + S768x128.size a ≤ S768x128.size a
  h_S768x128 : 0 < S768x128.numel
  shapeCasts_S768x128_S768x128 : S768x128.ShapeCasts S768x128
  inb_S2000x1_S2000x1_0_0 : ∀ a, (![0, 0] : Fin 2 → Nat) a + S2000x1.size a ≤ S2000x1.size a
  h_S2000x1 : 0 < S2000x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S2000x1_S2000x128 : S2000x1.Broadcasts S2000x128
  broadcasts_S1x128_S2000x128 : S1x128.Broadcasts S2000x128
  inb_S2000x128_S2000x128_0_0 : ∀ a, (![0, 0] : Fin 2 → Nat) a + S2000x128.size a ≤ S2000x128.size a
  h_S2000x128 : 0 < S2000x128.numel
  packedbf16_S2000x128_S2000x128_0_0 : (Rect.unit (s := S2000x128) ![0, 0] S2000x128.size inb_S2000x128_S2000x128_0_0).PackedRows (EltTy.packing .bf16)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  pads_S128x5_S128x128_000_01230 : S128x5.Pads (![0, 0] : Fin 2 → Nat) ![0, 123] ![0, 0] S128x128
  h_S_ : 0 < S_.numel
  shapeCasts_S2000x128_S2000x128 : S2000x128.ShapeCasts S2000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  slices_S100000x128_S100000x5_0_0 : S100000x128.Slices ![0, 0] S100000x5
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S2000x768_S768x768_S2000x768_1_0_0_1_n_n_wf : DotDims.WF S2000x768 S768x768 S2000x768 [1] [0] [0] [1] [] []
  dot_S2000x768_S768x128_S2000x128_1_0_0_1_n_n_wf : DotDims.WF S2000x768 S768x128 S2000x128 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S2000x128_S128x128_S2000x128_1_0_0_1_n_n_wf : DotDims.WF S2000x128 S128x128 S2000x128 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x768.size a ≤ S100000x768.size a
  hwx0_0 : ∀ i : grid0.Coords, EltTy.bits .f32 = 32 ∨ (Rect.block (s := S100000x768) S2000x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S768x768.size a ≤ S768x768.size a
  hwx0_1 : ∀ i : grid0.Coords, EltTy.bits .bf16 = 32 ∨ (Rect.block (s := S768x768) S768x768.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x128.size a ≤ S768x128.size a
  hwx0_3 : ∀ i : grid0.Coords, EltTy.bits .bf16 = 32 ∨ (Rect.block (s := S768x128) S768x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x1.size a ≤ S100000x1.size a
  hwx0_6 : ∀ i : grid0.Coords, EltTy.bits .f32 = 32 ∨ (Rect.block (s := S100000x1) S2000x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x1.size a ≤ S100000x1.size a
  hwx0_7 : ∀ i : grid0.Coords, EltTy.bits .f32 = 32 ∨ (Rect.block (s := S100000x1) S2000x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S2000x128.size a ≤ S100000x128.size a
  hwx0_8 : ∀ i : grid0.Coords, EltTy.bits .bf16 = 32 ∨ (Rect.block (s := S100000x128) S2000x128.size (cc0_transform_8 i) (hinb0_8 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)

variable [Facts₀]

def dot_S2000x768_S768x768_S2000x768_1_0_0_1_n_n : DotDims S2000x768 S768x768 S2000x768 where
  lhsContracting := [1]
  rhsContracting := [0]
  lhsNonContracting := [0]
  rhsNonContracting := [1]
  lhsBatch := []
  rhsBatch := []
  wf := dot_S2000x768_S768x768_S2000x768_1_0_0_1_n_n_wf
def dot_S2000x768_S768x128_S2000x128_1_0_0_1_n_n : DotDims S2000x768 S768x128 S2000x128 where
  lhsContracting := [1]
  rhsContracting := [0]
  lhsNonContracting := [0]
  rhsNonContracting := [1]
  lhsBatch := []
  rhsBatch := []
  wf := dot_S2000x768_S768x128_S2000x128_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf

abbrev win0_0 : Pipeline.Window sig grid0 :=
  Pipeline.Window.ofSpec (Memref.whole main_arg0) S2000x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S768x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S768x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S2000x1.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg2) S2000x1.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6) S2000x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v56) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v59) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x768 : Shape := ⟨2, ![100000, 768]⟩
abbrev S100000x1 : Shape := ⟨2, ![100000, 1]⟩
abbrev S2x1600000 : Shape := ⟨2, ![2, 1600000]⟩
abbrev S1600000 : Shape := ⟨1, ![1600000]⟩
abbrev S768x768 : Shape := ⟨2, ![768, 768]⟩
abbrev S768 : Shape := ⟨1, ![768]⟩
abbrev S770x128 : Shape := ⟨2, ![770, 128]⟩
abbrev S128 : Shape := ⟨1, ![128]⟩
abbrev S128x5 : Shape := ⟨2, ![128, 5]⟩
abbrev S5 : Shape := ⟨1, ![5]⟩
abbrev S1x768 : Shape := ⟨2, ![1, 768]⟩
abbrev S100000x770 : Shape := ⟨2, ![100000, 770]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S100000x128 : Shape := ⟨2, ![100000, 128]⟩
abbrev S1700000x128 : Shape := ⟨2, ![1700000, 128]⟩
abbrev S1x128 : Shape := ⟨2, ![1, 128]⟩
abbrev S100000x5 : Shape := ⟨2, ![100000, 5]⟩
abbrev S1700000x5 : Shape := ⟨2, ![1700000, 5]⟩
abbrev S1x5 : Shape := ⟨2, ![1, 5]⟩

abbrev nBuf : Space → Nat
  | .hbm => 102
  | .vmem => 0
  | .smem => 0
  | _ => 0

abbrev bufTy : (tb : Table) → Fin (tcTables nBuf tb) → BufTy
  | .hbm, ⟨0, _⟩ => ⟨S100000x768, .f32⟩
  | .hbm, ⟨1, _⟩ => ⟨S100000x1, .f32⟩
  | .hbm, ⟨2, _⟩ => ⟨S100000x1, .f32⟩
  | .hbm, ⟨3, _⟩ => ⟨S2x1600000, .i32⟩
  | .hbm, ⟨4, _⟩ => ⟨S1600000, .f32⟩
  | .hbm, ⟨5, _⟩ => ⟨S768x768, .f32⟩
  | .hbm, ⟨6, _⟩ => ⟨S768, .f32⟩
  | .hbm, ⟨7, _⟩ => ⟨S770x128, .f32⟩
  | .hbm, ⟨8, _⟩ => ⟨S128, .f32⟩
  | .hbm, ⟨9, _⟩ => ⟨S128x5, .f32⟩
  | .hbm, ⟨10, _⟩ => ⟨S5, .f32⟩
  | .hbm, ⟨11, _⟩ => ⟨S100000x768, .f32⟩
  | .hbm, ⟨12, _⟩ => ⟨S1x768, .f32⟩
  | .hbm, ⟨13, _⟩ => ⟨S100000x768, .f32⟩
  | .hbm, ⟨14, _⟩ => ⟨S100000x768, .f32⟩
  | .hbm, ⟨15, _⟩ => ⟨S100000x768, .f32⟩
  | .hbm, ⟨16, _⟩ => ⟨S100000x770, .f32⟩
  | .hbm, ⟨17, _⟩ => ⟨S1x1600000, .i32⟩
  | .hbm, ⟨18, _⟩ => ⟨S1600000, .i32⟩
  | .hbm, ⟨19, _⟩ => ⟨S1x1600000, .i32⟩
  | .hbm, ⟨20, _⟩ => ⟨S1600000, .i32⟩
  | .hbm, ⟨21, _⟩ => ⟨S100000, .i32⟩
  | .hbm, ⟨22, _⟩ => ⟨S1700000, .i32⟩
  | .hbm, ⟨23, _⟩ => ⟨S1700000, .i32⟩
  | .hbm, ⟨24, _⟩ => ⟨S_, .f32⟩
  | .hbm, ⟨25, _⟩ => ⟨S100000, .f32⟩
  | .hbm, ⟨26, _⟩ => ⟨S1700000, .f32⟩
  | .hbm, ⟨27, _⟩ => ⟨S_, .f32⟩
  | .hbm, ⟨28, _⟩ => ⟨S100000, .f32⟩
  | .hbm, ⟨29, _⟩ => ⟨S1700000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S100000, .f32⟩
  | .hbm, ⟨35, _⟩ => ⟨S_, .f32⟩
  | .hbm, ⟨36, _⟩ => ⟨S_, .f32⟩
  | .hbm, ⟨37, _⟩ => ⟨S100000, .f32⟩
  | .hbm, ⟨38, _⟩ => ⟨S100000, .f32⟩
  | .hbm, ⟨39, _⟩ => ⟨S_, .i32⟩
  | .hbm, ⟨40, _⟩ => ⟨S1700000, .i32⟩
  | .hbm, ⟨41, _⟩ => ⟨S1700000, .i1⟩
  | .hbm, ⟨42, _⟩ => ⟨S_, .i32⟩
  | .hbm, ⟨43, _⟩ => ⟨S1700000, .i32⟩
  | .hbm, ⟨44, _⟩ => ⟨S1700000, .i32⟩
  | .hbm, ⟨45, _⟩ => ⟨S1700000, .i32⟩
  | .hbm, ⟨46, _⟩ => ⟨S1700000x1, .i32⟩
  | .hbm, ⟨47, _⟩ => ⟨S1700000, .f32⟩
  | .hbm, ⟨48, _⟩ => ⟨S1700000, .f32⟩
  | .hbm, ⟨49, _⟩ => ⟨S_, .i32⟩
  | .hbm, ⟨50, _⟩ => ⟨S1700000, .i32⟩
  | .hbm, ⟨51, _⟩ => ⟨S1700000, .i1⟩
  | .hbm, ⟨52, _⟩ => ⟨S_, .i32⟩
  | .hbm, ⟨53, _⟩ => ⟨S1700000, .i32⟩
  | .hbm, ⟨54, _⟩ => ⟨S1700000, .i32⟩
  | .hbm, ⟨55, _⟩ => ⟨S1700000, .i32⟩
  | .hbm, ⟨56, _⟩ => ⟨S1700000x1, .i32⟩
  | .hbm, ⟨57, _⟩ => ⟨S1700000, .f32⟩
  | .hbm, ⟨58, _⟩ => ⟨S1700000, .f32⟩
  | .hbm, ⟨59, _⟩ => ⟨S100000x128, .f32⟩
  | .hbm, ⟨60, _⟩ => ⟨S1700000x1, .f32⟩
  | .hbm, ⟨61, _⟩ => ⟨S_, .i32⟩
  | .hbm, ⟨62, _⟩ => ⟨S1700000, .i32⟩
  | .hbm, ⟨63, _⟩ => ⟨S1700000, .i1⟩
  | .hbm, ⟨64, _⟩ => ⟨S_, .i32⟩
  | .hbm, ⟨65, _⟩ => ⟨S1700000, .i32⟩
  | .hbm, ⟨66, _⟩ => ⟨S1700000, .i32⟩
  | .hbm, ⟨67, _⟩ => ⟨S1700000, .i32⟩
  | .hbm, ⟨68, _⟩ => ⟨S1700000x1, .i32⟩
  | .hbm, ⟨69, _⟩ => ⟨S1700000x128, .f32⟩
  | .hbm, ⟨70, _⟩ => ⟨S1700000x128, .f32⟩
  | .hbm, ⟨71, _⟩ => ⟨S1700000x128, .f32⟩
  | .hbm, ⟨72, _⟩ => ⟨S_, .f32⟩
  | .hbm, ⟨73, _⟩ => ⟨S100000x128, .f32⟩
  | .hbm, ⟨74, _⟩ => ⟨S1700000x1, .i32⟩
  | .hbm, ⟨75, _⟩ => ⟨S100000x128, .f32⟩
  | .hbm, ⟨76, _⟩ => ⟨S1x128, .f32⟩
  | .hbm, ⟨77, _⟩ => ⟨S100000x128, .f32⟩
  | .hbm, ⟨78, _⟩ => ⟨S100000x128, .f32⟩
  | .hbm, ⟨79, _⟩ => ⟨S_, .f32⟩
  | .hbm, ⟨80, _⟩ => ⟨S100000x128, .f32⟩
  | .hbm, ⟨81, _⟩ => ⟨S100000x128, .f32⟩
  | .hbm, ⟨82, _⟩ => ⟨S100000x5, .f32⟩
  | .hbm, ⟨83, _⟩ => ⟨S1700000x1, .f32⟩
  | .hbm, ⟨84, _⟩ => ⟨S_, .i32⟩
  | .hbm, ⟨85, _⟩ => ⟨S1700000, .i32⟩
  | .hbm, ⟨86, _⟩ => ⟨S1700000, .i1⟩
  | .hbm, ⟨87, _⟩ => ⟨S_, .i32⟩
  | .hbm, ⟨88, _⟩ => ⟨S1700000, .i32⟩
  | .hbm, ⟨89, _⟩ => ⟨S1700000, .i32⟩
  | .hbm, ⟨90, _⟩ => ⟨S1700000, .i32⟩
  | .hbm, ⟨91, _⟩ => ⟨S1700000x1, .i32⟩
  | .hbm, ⟨92, _⟩ => ⟨S1700000x5, .f32⟩
  | .hbm, ⟨93, _⟩ => ⟨S1700000x5, .f32⟩
  | .hbm, ⟨94, _⟩ => ⟨S1700000x5, .f32⟩
  | .hbm, ⟨95, _⟩ => ⟨S_, .f32⟩
  | .hbm, ⟨96, _⟩ => ⟨S100000x5, .f32⟩
  | .hbm, ⟨97, _⟩ => ⟨S1700000x1, .i32⟩
  | .hbm, ⟨98, _⟩ => ⟨S100000x5, .f32⟩
  | .hbm, ⟨99, _⟩ => ⟨S1x5, .f32⟩
  | .hbm, ⟨100, _⟩ => ⟨S100000x5, .f32⟩
  | .hbm, ⟨101, _⟩ => ⟨S100000x5, .f32⟩
  | _, _ => ⟨S100000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst : Ref sig .tc := ⟨.hbm, 24, rfl⟩
abbrev main_v13 : Ref sig .tc := ⟨.hbm, 25, rfl⟩
abbrev main_v14 : Ref sig .tc := ⟨.hbm, 26, rfl⟩
abbrev main_cst_0 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_call0_v0 : Ref sig .tc := ⟨.hbm, 36, rfl⟩
abbrev main_call0_v1 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_3 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_c_4 : Ref sig .tc := ⟨.hbm, 49, rfl⟩
abbrev main_v30 : Ref sig .tc := ⟨.hbm, 50, rfl⟩
abbrev main_v31 : Ref sig .tc := ⟨.hbm, 51, rfl⟩
abbrev main_c_5 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_6 : Ref sig .tc := ⟨.hbm, 61, rfl⟩
abbrev main_v40 : Ref sig .tc := ⟨.hbm, 62, rfl⟩
abbrev main_v41 : Ref sig .tc := ⟨.hbm, 63, rfl⟩
abbrev main_c_7 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_8 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_call1_cst : Ref sig .tc := ⟨.hbm, 79, rfl⟩
abbrev main_call1_v0 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_c_9 : Ref sig .tc := ⟨.hbm, 84, rfl⟩
abbrev main_v58 : Ref sig .tc := ⟨.hbm, 85, rfl⟩
abbrev main_v59 : Ref sig .tc := ⟨.hbm, 86, rfl⟩
abbrev main_c_10 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_11 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S100000x768_0_1 : S1x768.BroadcastsInDim S100000x768 (![0, 1] : Fin 2 → Fin S100000x768.rank)
  concatenates_S100000x768_S100000x1_S100000x1_S100000x770_d1 : Shape.Concatenates [S100000x768, S100000x1, S100000x1] S100000x770 1
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x128_0_1 : S1700000x1.BroadcastsInDim S1700000x128 (![0, 1] : Fin 2 → Fin S1700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1700000x1_S1700000x5_0_1 : S1700000x1.BroadcastsInDim S1700000x5 (![0, 1] : Fin 2 → Fin S1700000x5.rank)
  bcast_S_S100000x5 : S_.BroadcastsInDim S100000x5 (![] : Fin 0 → Fin S100000x5.rank)
  bcast_S5_S1x5_1 : S5.BroadcastsInDim S1x5 (![1] : Fin 1 → Fin S1x5.rank)
  bcast_S1x5_S100000x5_0_1 : S1x5.BroadcastsInDim S100000x5 (![0, 1] : Fin 2 → Fin S100000x5.rank)
  dot_S100000x768_S768x768_S100000x768_1_0_0_1_n_n_wf : DotDims.WF S100000x768 S768x768 S100000x768 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x770_S770x128_S100000x128_1_0_0_1_n_n_wf : DotDims.WF S100000x770 S770x128 S100000x128 [1] [0] [0] [1] [] []
  gather_S100000x128_S1700000x1_S1700000x128_1_0_n_n_0_1_1128_wf : GatherDims.WF S100000x128 S1700000x1 S1700000x128 [1] [0] [] [0] [] 1 ![1, 128]
  scatter_S100000x128_S1700000x1_S1700000x128_1_0_0_1_wf : ScatterDims.WF S100000x128 S1700000x1 S1700000x128 [1] [0] [0] 1
  dot_S100000x128_S128x5_S100000x5_1_0_0_1_n_n_wf : DotDims.WF S100000x128 S128x5 S100000x5 [1] [0] [0] [1] [] []
  gather_S100000x5_S1700000x1_S1700000x5_1_0_n_n_0_1_15_wf : GatherDims.WF S100000x5 S1700000x1 S1700000x5 [1] [0] [] [0] [] 1 ![1, 5]
  scatter_S100000x5_S1700000x1_S1700000x5_1_0_0_1_wf : ScatterDims.WF S100000x5 S1700000x1 S1700000x5 [1] [0] [0] 1

variable [Facts₀]

def dot_S100000x768_S768x768_S100000x768_1_0_0_1_n_n : DotDims S100000x768 S768x768 S100000x768 where
  lhsContracting := [1]
  rhsContracting := [0]
  lhsNonContracting := [0]
  rhsNonContracting := [1]
  lhsBatch := []
  rhsBatch := []
  wf := dot_S100000x768_S768x768_S100000x768_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x770_S770x128_S100000x128_1_0_0_1_n_n : DotDims S100000x770 S770x128 S100000x128 where
  lhsContracting := [1]
  rhsContracting := [0]
  lhsNonContracting := [0]
  rhsNonContracting := [1]
  lhsBatch := []
  rhsBatch := []
  wf := dot_S100000x770_S770x128_S100000x128_1_0_0_1_n_n_wf
def gather_S100000x128_S1700000x1_S1700000x128_1_0_n_n_0_1_1128 : GatherDims S100000x128 S1700000x1 S1700000x128 where
  offsetDims := [1]
  collapsedSliceDims := [0]
  operandBatchingDims := []
  startIndicesBatchingDims := []
  startIndexMap := [0]
  indexVectorDim := 1
  sliceSizes := ![1, 128]
  wf := gather_S100000x128_S1700000x1_S1700000x128_1_0_n_n_0_1_1128_wf
def scatter_S100000x128_S1700000x1_S1700000x128_1_0_0_1 : ScatterDims S100000x128 S1700000x1 S1700000x128 where
  updateWindowDims := [1]
  insertedWindowDims := [0]
  scatterDimsToOperandDims := [0]
  indexVectorDim := 1
  wf := scatter_S100000x128_S1700000x1_S1700000x128_1_0_0_1_wf
def dot_S100000x128_S128x5_S100000x5_1_0_0_1_n_n : DotDims S100000x128 S128x5 S100000x5 where
  lhsContracting := [1]
  rhsContracting := [0]
  lhsNonContracting := [0]
  rhsNonContracting := [1]
  lhsBatch := []
  rhsBatch := []
  wf := dot_S100000x128_S128x5_S100000x5_1_0_0_1_n_n_wf
def gather_S100000x5_S1700000x1_S1700000x5_1_0_n_n_0_1_15 : GatherDims S100000x5 S1700000x1 S1700000x5 where
  offsetDims := [1]
  collapsedSliceDims := [0]
  operandBatchingDims := []
  startIndicesBatchingDims := []
  startIndexMap := [0]
  indexVectorDim := 1
  sliceSizes := ![1, 5]
  wf := gather_S100000x5_S1700000x1_S1700000x5_1_0_n_n_0_1_15_wf
def scatter_S100000x5_S1700000x1_S1700000x5_1_0_0_1 : ScatterDims S100000x5 S1700000x1 S1700000x5 where
  updateWindowDims := [1]
  insertedWindowDims := [0]
  scatterDimsToOperandDims := [0]
  indexVectorDim := 1
  wf := scatter_S100000x5_S1700000x1_S1700000x5_1_0_0_1_wf

class Facts : Prop extends Facts₀ where

variable [Facts]
-- ==== Proof.KernelRun.lean ====
/-
  The idealized kernel's whole run, with its result named.

  The program is two grid regions among stretches of host operations. Its buffers' contents at each boundary are a
  fold from the launch memory: a host stretch applies its operations in order, a region leaves each of its arrays at
  what its write-backs hold and every other buffer untouched. At the return every buffer holds the last boundary's
  contents, so the result array is the fold read at the result buffer, and each argument array is read back through
  the fold to what it held at launch.
-/
import proofs.«174872_j45543833207355_2_alg».proof.Proof.Gen.KernelIdeal.Frame

set_option maxRecDepth 16384

noncomputable section

namespace Cert.KernelIdeal.RunValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result array ends at the last
    boundary's contents read at the result buffer, and every argument array ends as launched. -/
theorem run_result : θ_run defs (onTc (τ := τ) (main (F := F))) ⟨m, fun _ => 0, ρ⟩ (fun r => ∀ c : Dev nD,
      r.2.mem ((c.tc : Thread nD τ).loc main_v76) = W11 m ρ c (Proc.devRef .tc main_v76)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h c =>
      ⟨h c _ (mem_uc main_v76 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c),
       (h c _ (mem_uc main_arg7 (by decide))).trans (W11_main_arg7 m ρ c),
       (h c _ (mem_uc main_arg8 (by decide))).trans (W11_main_arg8 m ρ c),
       (h c _ (mem_uc main_arg9 (by decide))).trans (W11_main_arg9 m ρ c),
       (h c _ (mem_uc main_arg10 (by decide))).trans (W11_main_arg10 m ρ c)⟩)

end Cert.KernelIdeal.RunValue

end
-- ==== Proof.LibPlainDot.lean ====
/-
  The matrix product of an [M, K] array and a [K, N] array, read at one entry.

  Whatever record carries the dimension numbers of a plain product (contract the left operand's columns with the right
  operand's rows, no batch axis), entry (p, q) of a kernel's product into a zero accumulator, and of a host program's
  product, is the sum over k of left (p, k) times right (k, q): it depends on the left operand through row p alone.
-/
import Idealize.ShloMosaic.Lib.ValueIdx
import Idealize.ShloMosaic.PureOps.Ideal.Laws

noncomputable section

namespace Cert.PlainDot

open Idealize.ShloMosaic Idealize.ShloMosaic.ValueIdx

variable {M K N : ℕ}

/-- The dimension numbers of a plain M×K by K×N product. -/
structure IsPlain (d : DotDims ⟨2, ![M, K]⟩ ⟨2, ![K, N]⟩ ⟨2, ![M, N]⟩) : Prop where
  lc : d.lhsContracting = [1]
  rc : d.rhsContracting = [0]
  ln : d.lhsNonContracting = [0]
  rn : d.rhsNonContracting = [1]
  lb : d.lhsBatch = []
  rb : d.rhsBatch = []

/-- The contraction's sum, re-indexed by the one contracted coordinate. -/
theorem contr_sum (d : DotDims ⟨2, ![M, K]⟩ ⟨2, ![K, N]⟩ ⟨2, ![M, N]⟩) (hd : IsPlain d)
    (lhs : (⟨2, ![M, K]⟩ : Shape).Idx → EReal) (rhs : (⟨2, ![K, N]⟩ : Shape).Idx → EReal) (p : Fin M) (q : Fin N) :
    ∑ k : d.contr.Idx, lhs (d.lhsIdx (ix2 p q) k) * rhs (d.rhsIdx (ix2 p q) k) = ∑ k : Fin K, lhs (ix2 p k) * rhs (ix2 k q) := by
  obtain ⟨lc, rc, ln, rn, lb, rb, wf⟩ := d
  obtain ⟨h1, h2, h3, h4, h5, h6⟩ := hd
  dsimp only at h1 h2 h3 h4 h5 h6
  subst h1 h2 h3 h4 h5 h6
  generalize hD : (⟨[1], [0], [0], [1], [], [], wf⟩ : DotDims ⟨2, ![M, K]⟩ ⟨2, ![K, N]⟩ ⟨2, ![M, N]⟩) = d
  have hlc : d.lhsContracting = [1] := by rw [← hD]
  have hrc : d.rhsContracting = [0] := by rw [← hD]
  have hr : d.contr.rank = 1 := by rw [← hD]; rfl
  have hs : d.contr.size ⟨0, by omega⟩ = K := by subst hD; rfl
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ =>
      subst hD
      unfold DotDims.lhsIdx
      dsimp only
      repeat' split
      all_goals first | rfl | (exfalso; simp_all)
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ =>
      subst hD
      unfold DotDims.rhsIdx
      dsimp only
      repeat' split
      all_goals first | rfl | (exfalso; simp_all))
  rw [el, er]

/-- A kernel's product into a zero accumulator at entry (p, q). -/
theorem matmul_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    matmul d prec lhs rhs (constant ⟨2, ![M, N]⟩ .f32 0x00000000#32) (ix2 p q) = ∑ k : Fin K, lhs (ix2 p k) * rhs (ix2 k q) := by
  show FloatOps.matmul d prec lhs rhs (constant ⟨2, ![M, N]⟩ .f32 0x00000000#32) (ix2 p q) = _
  rw [Ideal.matmul_constant_zero_apply]
  exact contr_sum d hd lhs rhs p q

/-- A host program's product at entry (p, q). -/
theorem dotGeneral_apply {φ₁ φ₂ : FTy} (d : DotDims ⟨2, ![M, K]⟩ ⟨2, ![K, N]⟩ ⟨2, ![M, N]⟩) (hd : IsPlain d)
    (prec : Option ContractPrecision) (lhs : FVec Ideal ⟨2, ![M, K]⟩ φ₁) (rhs : FVec Ideal ⟨2, ![K, N]⟩ φ₂) (p : Fin M) (q : Fin N) :
    Host.dotGeneral d prec lhs rhs (ix2 p q) = ∑ k : Fin K, lhs (ix2 p k) * rhs (ix2 k q) := by
  show FloatOps.dotGeneral d prec _ lhs rhs (ix2 p q) = _
  rw [Ideal.dotGeneral_apply]
  exact contr_sum d hd lhs rhs p q

end Cert.PlainDot

end
-- ==== Proof.LibLayout.lean ====
/-
  Small layout facts read at an index, for two-dimensional arrays with a unit axis: a vector turned into a
  column, a column broadcast across columns. (The row forms and the plain transpose are in the library.)
-/
import Idealize.ShloMosaic.Lib.ValueIdx
import Idealize.ShloMosaic.Lib.ValueLayout
import Idealize.ShloMosaic.Lib.Pipeline.Value

namespace Cert.LibLayout

open Idealize.ShloMosaic Idealize.ShloMosaic.ValueIdx

variable {α : Type}

/-- An `[a]` array cast to the column shape `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A one-element `[1]` array cast to `[1, 1]` reads the operand's one element. -/
theorem shapeCast_1_11_apply (x : (⟨1, ![1]⟩ : Shape).Idx → α) (h : (⟨1, ![1]⟩ : Shape).ShapeCasts ⟨2, ![1, 1]⟩)
    (u v : Fin 1) : shapeCast ⟨2, ![1, 1]⟩ x h (ix2 u v) = x (ix1 (0 : Fin 1)) :=
  shapeCast_apply x h _ _ (by
    have hu : u.val = 0 := by omega
    have hv : v.val = 0 := by omega
    rw [Shape.rowMajor_val_two, Shape.rowMajor_val_one]
    show (0 : ℕ) = u.val * 1 + v.val
    rw [hu, hv])

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl
/-- … so a sum over it is the triple sum over the coordinates. -/
theorem sum_idx3 {M : Type*} [AddCommMonoid M] {n0 n1 n2 : ℕ} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

end Cert.LibLayout
-- ==== Proof.Region0.lean ====
/-
  The first grid region: a dense layer, its activation, and the next layer's linear transform, fused and row-blocked.

  The region walks the 100000 rows of the embedding array in 50 blocks of 2000 rows. For a block it forms
  tanh (block · Wd + bd), multiplies that by the first 768 rows of W1, and adds the two remaining rows of W1 scaled by
  the block's rows of the two side columns. Entry (p, q) of what it stores is therefore

      (Σ_k tanh ((Σ_l block (p, l) · Wd (l, k)) + bd k) · W1top (k, q)) + pnum p · w768 q + tlen p · w769 q,

  which reads the block, and the two side columns, through row p only; and row p of block t is row 2000 t + p of the
  arrays. The blocks tile the result, so the result array holds that expression of the whole arrays at every (i, j).
  The changes of float format in the body are the identity on extended reals, and both products add into zero.
-/
import proofs.«174872_j45543833207355_2_alg».proof.Proof.Gen.KernelIdeal.Frame
import proofs.«174872_j45543833207355_2_alg».proof.Proof.LibPlainDot
import proofs.«174872_j45543833207355_2_alg».proof.Proof.LibLayout
import Idealize.ShloMosaic.Lib.Pipeline.Value
import Idealize.ShloMosaic.Lib.ValueIdx
import Idealize.ShloMosaic.Lib.ValueLayout

set_option maxRecDepth 16384

noncomputable section

namespace Cert.KernelIdeal.Region0

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The fused layer as one function of the whole arrays: the embedding `E`, the dense weights `Wd` and bias row `bd`,
    the first 768 rows `Wt` and the last two rows `wp`, `wt` of the next layer's weights, and the two side columns. -/
def fused (E : FVec Ideal S100000x768 .f32) (Wd : FVec Ideal S768x768 .bf16) (bd : FVec Ideal S1x768 .f32)
    (Wt : FVec Ideal S768x128 .bf16) (wp wt : FVec Ideal S1x128 .f32) (P T : FVec Ideal S100000x1 .f32) :
    FVec Ideal S100000x128 .bf16 :=
  fun i => ((∑ k : Fin 768, Ideal.tanh ((∑ l : Fin 768, E (ix2 (i 0) l) * Wd (ix2 l k)) + bd (ix2 (0 : Fin 1) k)) * Wt (ix2 k (i 1)))
      + P (ix2 (i 0) (0 : Fin 1)) * wp (ix2 (0 : Fin 1) (i 1)))
    + T (ix2 (i 0) (0 : Fin 1)) * wt (ix2 (0 : Fin 1) (i 1))

theorem zero_offsets : (![0, 0] : Fin 2 → Nat) = fun _ => 0 := funext fun a => by fin_cases a <;> rfl

/-- Both of the body's products contract the left operand's columns with the right operand's rows, with no batch axis. -/
theorem plain_dense : Cert.PlainDot.IsPlain dot_S2000x768_S768x768_S2000x768_1_0_0_1_n_n := ⟨rfl, rfl, rfl, rfl, rfl, rfl⟩
theorem plain_next : Cert.PlainDot.IsPlain dot_S2000x768_S768x128_S2000x128_1_0_0_1_n_n := ⟨rfl, rfl, rfl, rfl, rfl, rfl⟩

/-- The hidden activation of a block at (p, k): tanh of row p of the block against column k of the dense weights, plus
    the bias at k. -/
theorem hidden_apply (v0 : FVec Ideal S2000x768 .f32) (v2 : FVec Ideal S768x768 .bf16) (v5 : FVec Ideal S1x768 .f32)
    (p : Fin 2000) (k : Fin 768) :
    tanh (F := Ideal) (addf (F := Ideal)
        (matmul (F := Ideal) dot_S2000x768_S768x768_S2000x768_1_0_0_1_n_n none (truncf (F := Ideal) .bf16 v0 bitsLt_bf16_f32)
          (shapeCast S768x768 v2 shapeCasts_S768x768_S768x768) (constant (F := Ideal) S2000x768 .f32 0x00000000#32))
        (broadcastTo S2000x768 (shapeCast S1x768 v5 shapeCasts_S1x768_S1x768) broadcasts_S1x768_S2000x768)) (ix2 p k)
      = Ideal.tanh ((∑ l : Fin 768, v0 (ix2 p l) * v2 (ix2 l k)) + v5 (ix2 (0 : Fin 1) k)) := by
  show Ideal.tanh (matmul (F := Ideal) dot_S2000x768_S768x768_S2000x768_1_0_0_1_n_n none (truncf (F := Ideal) .bf16 v0 bitsLt_bf16_f32)
          (shapeCast S768x768 v2 shapeCasts_S768x768_S768x768) (constant (F := Ideal) S2000x768 .f32 0x00000000#32) (ix2 p k)
        + broadcastTo S2000x768 (shapeCast S1x768 v5 shapeCasts_S1x768_S1x768) broadcasts_S1x768_S2000x768 (ix2 p k)) = _
  refine congrArg Ideal.tanh (congrArg₂ (· + ·) ?_ ?_)
  · refine (Cert.PlainDot.matmul_apply dot_S2000x768_S768x768_S2000x768_1_0_0_1_n_n plain_dense none _ _ p k).trans ?_
    rw [shapeCast_self]
    rfl
  · refine (broadcastTo_1b_ab_apply _ broadcasts_S1x768_S2000x768 p k).trans ?_
    rw [shapeCast_self]

/-- What the body stores at entry (p, q) of the block, from the values it loaded. -/
theorem stored_apply (v0 : FVec Ideal S2000x768 .f32) (v2 : FVec Ideal S768x768 .bf16) (v5 : FVec Ideal S1x768 .f32)
    (v11 : FVec Ideal S768x128 .bf16) (v14 v15 : FVec Ideal S2000x1 .f32) (v16 v22 : FVec Ideal S1x128 .f32)
    (p : Fin 2000) (q : Fin 128) :
    k0_pay1 (F := Ideal) v0 v2 v5 v11 v14 v15 v16 v22 (ix2 p q)
      = ((∑ k : Fin 768, Ideal.tanh ((∑ l : Fin 768, v0 (ix2 p l) * v2 (ix2 l k)) + v5 (ix2 (0 : Fin 1) k)) * v11 (ix2 k q))
          + v14 (ix2 p (0 : Fin 1)) * v16 (ix2 (0 : Fin 1) q))
        + v15 (ix2 p (0 : Fin 1)) * v22 (ix2 (0 : Fin 1) q) := by
  unfold k0_pay1
  show (matmul (F := Ideal) dot_S2000x768_S768x128_S2000x128_1_0_0_1_n_n none
          (truncf (F := Ideal) .bf16 (tanh (F := Ideal) (addf (F := Ideal)
            (matmul (F := Ideal) dot_S2000x768_S768x768_S2000x768_1_0_0_1_n_n none (truncf (F := Ideal) .bf16 v0 bitsLt_bf16_f32)
              (shapeCast S768x768 v2 shapeCasts_S768x768_S768x768) (constant (F := Ideal) S2000x768 .f32 0x00000000#32))
            (broadcastTo S2000x768 (shapeCast S1x768 v5 shapeCasts_S1x768_S1x768) broadcasts_S1x768_S2000x768))) bitsLt_bf16_f32)
          (shapeCast S768x128 v11 shapeCasts_S768x128_S768x128) (constant (F := Ideal) S2000x128 .f32 0x00000000#32) (ix2 p q)
        + broadcastTo S2000x128 v14 broadcasts_S2000x1_S2000x128 (ix2 p q)
          * broadcastTo S2000x128 (shapeCast S1x128 v16 shapeCasts_S1x128_S1x128) broadcasts_S1x128_S2000x128 (ix2 p q))
      + broadcastTo S2000x128 v15 broadcasts_S2000x1_S2000x128 (ix2 p q)
          * broadcastTo S2000x128 (shapeCast S1x128 v22 shapeCasts_S1x128_S1x128) broadcasts_S1x128_S2000x128 (ix2 p q) = _
  refine congrArg₂ (· + ·) (congrArg₂ (· + ·) ?_ (congrArg₂ (· * ·) ?_ ?_)) (congrArg₂ (· * ·) ?_ ?_)
  · refine (Cert.PlainDot.matmul_apply dot_S2000x768_S768x128_S2000x128_1_0_0_1_n_n plain_next none _ _ p q).trans ?_
    refine Finset.sum_congr rfl fun k _ => congrArg₂ (· * ·) ?_ ?_
    · exact hidden_apply v0 v2 v5 p k
    · rw [shapeCast_self]
  · exact Cert.LibLayout.broadcastTo_a1_ab_apply v14 broadcasts_S2000x1_S2000x128 p q
  · refine (broadcastTo_1b_ab_apply _ broadcasts_S1x128_S2000x128 p q).trans ?_
    rw [shapeCast_self]
  · exact Cert.LibLayout.broadcastTo_a1_ab_apply v15 broadcasts_S2000x1_S2000x128 p q
  · refine (broadcastTo_1b_ab_apply _ broadcasts_S1x128_S2000x128 p q).trans ?_
    rw [shapeCast_self]

/-- A block's stored entry at (p, q) is the fused layer of the whole arrays at (r, q), as soon as row p of the block of
    embeddings, and of each side column, is row r of its array. -/
theorem stored_eq_fused (x0 : FVec Ideal S2000x768 .f32) (Wd : FVec Ideal S768x768 .bf16) (bd : FVec Ideal S1x768 .f32)
    (Wt : FVec Ideal S768x128 .bf16) (x6 x7 : FVec Ideal S2000x1 .f32) (wp wt : FVec Ideal S1x128 .f32)
    (E : FVec Ideal S100000x768 .f32) (P T : FVec Ideal S100000x1 .f32) (p : Fin 2000) (q : Fin 128) (r : Fin 100000)
    (hE : ∀ l : Fin 768, x0 (ix2 p l) = E (ix2 r l)) (hP : x6 (ix2 p (0 : Fin 1)) = P (ix2 r (0 : Fin 1)))
    (hT : x7 (ix2 p (0 : Fin 1)) = T (ix2 r (0 : Fin 1))) :
    k0_pay1 (F := Ideal) x0 Wd bd Wt x6 x7 wp wt (ix2 p q) = fused E Wd bd Wt wp wt P T (ix2 r q) := by
  rw [stored_apply]
  simp only [hE, hP, hT]
  rfl

/-- The same at any two indices that name rows related in that way and the same column. -/
theorem stored_eq_fused_at (x0 : FVec Ideal S2000x768 .f32) (x1 : FVec Ideal S768x768 .bf16) (x2 : FVec Ideal S1x768 .f32)
    (x3 : FVec Ideal S768x128 .bf16) (x6 x7 : FVec Ideal S2000x1 .f32) (x4 x5 : FVec Ideal S1x128 .f32)
    (E : FVec Ideal S100000x768 .f32) (Wd : FVec Ideal S768x768 .bf16) (bd : FVec Ideal S1x768 .f32)
    (Wt : FVec Ideal S768x128 .bf16) (wp wt : FVec Ideal S1x128 .f32) (P T : FVec Ideal S100000x1 .f32)
    (y : S2000x128.Idx) (i : S100000x128.Idx)
    (hE : ∀ l : Fin 768, x0 (ix2 (y 0) l) = E (ix2 (i 0) l))
    (h1 : ∀ z, x1 z = Wd z) (h2 : ∀ z, x2 z = bd z) (h3 : ∀ z, x3 z = Wt z) (h4 : ∀ z, x4 z = wp z) (h5 : ∀ z, x5 z = wt z)
    (hP : x6 (ix2 (y 0) (0 : Fin 1)) = P (ix2 (i 0) (0 : Fin 1))) (hT : x7 (ix2 (y 0) (0 : Fin 1)) = T (ix2 (i 0) (0 : Fin 1)))
    (hcol : (i 1).val = (y 1).val) :
    k0_pay1 (F := Ideal) x0 x1 x2 x3 x6 x7 x4 x5 y = fused E Wd bd Wt wp wt P T i := by
  obtain rfl : x1 = Wd := funext h1
  obtain rfl : x2 = bd := funext h2
  obtain rfl : x3 = Wt := funext h3
  obtain rfl : x4 = wp := funext h4
  obtain rfl : x5 = wt := funext h5
  obtain ⟨p, q, rfl⟩ : ∃ (p : Fin 2000) (q : Fin 128), y = ix2 p q := ⟨y 0, y 1, eq_ix2 y⟩
  obtain ⟨r, q', rfl⟩ : ∃ (r : Fin 100000) (q' : Fin 128), i = ix2 r q' := ⟨i 0, i 1, eq_ix2 i⟩
  obtain rfl : q' = q := Fin.ext hcol
  exact stored_eq_fused x0 x1 x2 x3 x6 x7 x4 x5 E P T p q' r hE hP hT

/-- The printed index maps over the grid: the embedding's, the two side columns' and the result's blocks are at (t, 0);
    each of the five parameter arrays is one block at (0, 0). -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0
    ∧ win0_8.index t (0 : Fin 2) = t.val ∧ win0_8.index t (1 : Fin 2) = 0 :=
  (by decide +kernel : ∀ t : Fin grid0.N, _)

section
variable (V : (c : Dev nD) → (b : Ref sig .tc) → Buf (Elt Ideal) ((c : Thread nD τ).loc b))

/-- Window 1's one block is its whole array. -/
theorem whole1 (c : Dev nD) (t : Fin cfg0.N) (y : S768x768.Idx) : iblk0 V c 1 t y = V c main_v1 y := by
  obtain ⟨-, -, e10, e11, e20, e21, e30, e31, e40, e41, e50, e51, -, -, -, -, -, -⟩ := index_facts t
  show V c main_v1 (((cfg0.win 1).blk t).view.emb y) = V c main_v1 y
  refine congrArg (V c main_v1) (funext fun a => Fin.ext ?_)
  match a with
  | ⟨0, _⟩ =>
    show win0_1.index t (0 : Fin 2) * 768 + 1 * (y 0).val = (y 0).val
    rw [e10]; omega
  | ⟨1, _⟩ =>
    show win0_1.index t (1 : Fin 2) * 768 + 1 * (y 1).val = (y 1).val
    rw [e11]; omega

/-- Window 2's one block is its whole array. -/
theorem whole2 (c : Dev nD) (t : Fin cfg0.N) (y : S1x768.Idx) : iblk0 V c 2 t y = V c main_v0 y := by
  obtain ⟨-, -, e10, e11, e20, e21, e30, e31, e40, e41, e50, e51, -, -, -, -, -, -⟩ := index_facts t
  show V c main_v0 (((cfg0.win 2).blk t).view.emb y) = V c main_v0 y
  refine congrArg (V c main_v0) (funext fun a => Fin.ext ?_)
  match a with
  | ⟨0, _⟩ =>
    show win0_2.index t (0 : Fin 2) * 1 + 1 * (y 0).val = (y 0).val
    rw [e20]; omega
  | ⟨1, _⟩ =>
    show win0_2.index t (1 : Fin 2) * 768 + 1 * (y 1).val = (y 1).val
    rw [e21]; omega

/-- Window 3's one block is its whole array. -/
theorem whole3 (c : Dev nD) (t : Fin cfg0.N) (y : S768x128.Idx) : iblk0 V c 3 t y = V c main_v3 y := by
  obtain ⟨-, -, e10, e11, e20, e21, e30, e31, e40, e41, e50, e51, -, -, -, -, -, -⟩ := index_facts t
  show V c main_v3 (((cfg0.win 3).blk t).view.emb y) = V c main_v3 y
  refine congrArg (V c main_v3) (funext fun a => Fin.ext ?_)
  match a with
  | ⟨0, _⟩ =>
    show win0_3.index t (0 : Fin 2) * 768 + 1 * (y 0).val = (y 0).val
    rw [e30]; omega
  | ⟨1, _⟩ =>
    show win0_3.index t (1 : Fin 2) * 128 + 1 * (y 1).val = (y 1).val
    rw [e31]; omega

/-- Window 4's one block is its whole array. -/
theorem whole4 (c : Dev nD) (t : Fin cfg0.N) (y : S1x128.Idx) : iblk0 V c 4 t y = V c main_v4 y := by
  obtain ⟨-, -, e10, e11, e20, e21, e30, e31, e40, e41, e50, e51, -, -, -, -, -, -⟩ := index_facts t
  show V c main_v4 (((cfg0.win 4).blk t).view.emb y) = V c main_v4 y
  refine congrArg (V c main_v4) (funext fun a => Fin.ext ?_)
  match a with
  | ⟨0, _⟩ =>
    show win0_4.index t (0 : Fin 2) * 1 + 1 * (y 0).val = (y 0).val
    rw [e40]; omega
  | ⟨1, _⟩ =>
    show win0_4.index t (1 : Fin 2) * 128 + 1 * (y 1).val = (y 1).val
    rw [e41]; omega

/-- Window 5's one block is its whole array. -/
theorem whole5 (c : Dev nD) (t : Fin cfg0.N) (y : S1x128.Idx) : iblk0 V c 5 t y = V c main_v5 y := by
  obtain ⟨-, -, e10, e11, e20, e21, e30, e31, e40, e41, e50, e51, -, -, -, -, -, -⟩ := index_facts t
  show V c main_v5 (((cfg0.win 5).blk t).view.emb y) = V c main_v5 y
  refine congrArg (V c main_v5) (funext fun a => Fin.ext ?_)
  match a with
  | ⟨0, _⟩ =>
    show win0_5.index t (0 : Fin 2) * 1 + 1 * (y 0).val = (y 0).val
    rw [e50]; omega
  | ⟨1, _⟩ =>
    show win0_5.index t (1 : Fin 2) * 128 + 1 * (y 1).val = (y 1).val
    rw [e51]; omega

/-- What point `t` writes back is block `t` of the fused layer of the arrays as the region finds them. -/
theorem flushed_eq (c : Dev nD) (t : Fin cfg0.N) :
    (dat0 V c).flushed 8 t = ((cfg0.win 8).blk t).view.read (Elt Ideal)
      (fused (V c main_arg0) (V c main_v1) (V c main_v0) (V c main_v3) (V c main_v4) (V c main_v5) (V c main_arg1) (V c main_arg2)) := by
  show (cfg0.win 8).cut (grid0.coords t) ((dat0 V c).after 8 t) = _
  rw [after0_8]
  unfold out0_8
  rw [View.canon_unit_zero zero_offsets]
  simp only [View.ld_unit_zero (S := S2000x768) zero_offsets, View.ld_unit_zero (S := S768x768) zero_offsets,
    View.ld_unit_zero (S := S1x768) zero_offsets, View.ld_unit_zero (S := S768x128) zero_offsets,
    View.ld_unit_zero (S := S2000x1) zero_offsets, View.ld_unit_zero (S := S1x128) zero_offsets]
  obtain ⟨e00, e01, -, -, -, -, -, -, -, -, -, -, e60, e61, e70, e71, e80, e81⟩ := index_facts t
  funext j
  show k0_pay1 (F := Ideal) (iblk0 V c 0 t) (iblk0 V c 1 t) (iblk0 V c 2 t) (iblk0 V c 3 t) (iblk0 V c 6 t) (iblk0 V c 7 t)
      (iblk0 V c 4 t) (iblk0 V c 5 t) j
    = fused (V c main_arg0) (V c main_v1) (V c main_v0) (V c main_v3) (V c main_v4) (V c main_v5) (V c main_arg1) (V c main_arg2)
        (((cfg0.win 8).blk t).view.emb j)
  refine stored_eq_fused_at (iblk0 V c 0 t) (iblk0 V c 1 t) (iblk0 V c 2 t) (iblk0 V c 3 t) (iblk0 V c 6 t) (iblk0 V c 7 t)
    (iblk0 V c 4 t) (iblk0 V c 5 t) (V c main_arg0) (V c main_v1) (V c main_v0) (V c main_v3) (V c main_v4) (V c main_v5)
    (V c main_arg1) (V c main_arg2) j (((cfg0.win 8).blk t).view.emb j) (fun l => ?_) (whole1 V c t) (whole2 V c t) (whole3 V c t)
    (whole4 V c t) (whole5 V c t) ?_ ?_ ?_
  · show V c main_arg0 (((cfg0.win 0).blk t).view.emb (ix2 (j 0) l)) = V c main_arg0 (ix2 ((((cfg0.win 8).blk t).view.emb j) 0) l)
    refine congrArg (V c main_arg0) (funext fun a => Fin.ext ?_)
    match a with
    | ⟨0, _⟩ =>
      show win0_0.index t (0 : Fin 2) * 2000 + 1 * (j 0).val = win0_8.index t (0 : Fin 2) * 2000 + 1 * (j 0).val
      rw [e00, e80]
    | ⟨1, _⟩ =>
      show win0_0.index t (1 : Fin 2) * 768 + 1 * l.val = l.val
      rw [e01]; omega
  · show V c main_arg1 (((cfg0.win 6).blk t).view.emb (ix2 (j 0) (0 : Fin 1))) = V c main_arg1 (ix2 ((((cfg0.win 8).blk t).view.emb j) 0) (0 : Fin 1))
    refine congrArg (V c main_arg1) (funext fun a => Fin.ext ?_)
    match a with
    | ⟨0, _⟩ =>
      show win0_6.index t (0 : Fin 2) * 2000 + 1 * (j 0).val = win0_8.index t (0 : Fin 2) * 2000 + 1 * (j 0).val
      rw [e60, e80]
    | ⟨1, _⟩ =>
      show win0_6.index t (1 : Fin 2) * 1 + 1 * 0 = 0
      rw [e61]
  · show V c main_arg2 (((cfg0.win 7).blk t).view.emb (ix2 (j 0) (0 : Fin 1))) = V c main_arg2 (ix2 ((((cfg0.win 8).blk t).view.emb j) 0) (0 : Fin 1))
    refine congrArg (V c main_arg2) (funext fun a => Fin.ext ?_)
    match a with
    | ⟨0, _⟩ =>
      show win0_7.index t (0 : Fin 2) * 2000 + 1 * (j 0).val = win0_8.index t (0 : Fin 2) * 2000 + 1 * (j 0).val
      rw [e70, e80]
    | ⟨1, _⟩ =>
      show win0_7.index t (1 : Fin 2) * 1 + 1 * 0 = 0
      rw [e71]
  · show win0_8.index t (1 : Fin 2) * 128 + 1 * (j 1).val = (j 1).val
    rw [e81]; omega

/-- An index of the result array is in point `t`'s block iff each coordinate is in the block's range on its axis. -/
theorem mem_block (t : Fin cfg0.N) (i : S100000x128.Idx) :
    i ∈ ((cfg0.win 8).blk t).view.set ↔ ∀ a : Fin 2, win0_8.index t a * S2000x128.size a ≤ (i a).val
      ∧ (i a).val < win0_8.index t a * S2000x128.size a + S2000x128.size a := by
  show i ∈ ((View.whole main_v6).slice (win0_8.rect t)).set ↔ _
  rw [View.set_slice_whole, Rect.mem_set_unit]
  exact Iff.rfl

/-- Every index of the result array is in some written-back block: row `r` is in block `r / 2000`. -/
theorem covered (i : S100000x128.Idx) :
    ∃ t : Fin cfg0.N, (cfg0.win 8).flush t = true ∧ i ∈ ((cfg0.win 8).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, -, -, -, -, -, -, -, -, -, -, e80, e81⟩ := index_facts t
  have ht : t.val = (i 0).val / 2000 := rfl
  refine ⟨t, flush0_8 t, ?_⟩
  rw [mem_block]
  intro a
  match a with
  | ⟨0, _⟩ =>
    show win0_8.index t (0 : Fin 2) * 2000 ≤ (i 0).val ∧ (i 0).val < win0_8.index t (0 : Fin 2) * 2000 + 2000
    rw [e80, ht]; omega
  | ⟨1, _⟩ =>
    show win0_8.index t (1 : Fin 2) * 128 ≤ (i 1).val ∧ (i 1).val < win0_8.index t (1 : Fin 2) * 128 + 128
    rw [e81]; omega

/-- The result array after the region: the fused layer of the arrays the region was entered with. -/
theorem result_array (c : Dev nD) :
    (dat0 V c).arrAt 8 cfg0.N
      = fused (V c main_arg0) (V c main_v1) (V c main_v0) (V c main_v3) (V c main_v4) (V c main_v5) (V c main_arg1) (V c main_arg2) :=
  (dat0 V c).arrAt_eq_of_cover 8 _ (fun t _ => flushed_eq V c t) (covered)

end

end Cert.KernelIdeal.Region0

end
-- ==== Proof.HostEntry.lean ====
/-
  From the launch to the first region's exit.

  Before the first region the program prepares five arrays out of the parameters — the dense weights and the first 768
  rows of the next layer's weights in the narrow float format, the dense bias as a row, and rows 768 and 769 of the next
  layer's weights — and leaves the arguments alone. The region's result array is then the fused layer (Region0) of the
  embedding, those five arrays and the two side columns, all as functions of the arrays the program was launched with.
-/
import proofs.«174872_j45543833207355_2_alg».proof.Proof.Region0
import Idealize.ShloMosaic.Lib.StableHlo.Run

set_option maxRecDepth 16384

noncomputable section

namespace Cert.KernelIdeal.HostEntry

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The contents at the first region's entry -/

theorem entry_arg0 (c : Dev nD) : W1 m ρ c (Proc.devRef .tc main_arg0) = m ((c : Thread nD τ).loc main_arg0) := by
  dsimp only [W1, hostOps0]; after_results <;> rfl
theorem entry_arg1 (c : Dev nD) : W1 m ρ c (Proc.devRef .tc main_arg1) = m ((c : Thread nD τ).loc main_arg1) := by
  dsimp only [W1, hostOps0]; after_results <;> rfl
theorem entry_arg2 (c : Dev nD) : W1 m ρ c (Proc.devRef .tc main_arg2) = m ((c : Thread nD τ).loc main_arg2) := by
  dsimp only [W1, hostOps0]; after_results <;> rfl
/-- The dense bias as a 1 x 768 row. -/
theorem entry_bias (c : Dev nD) : (W1 m ρ c (Proc.devRef .tc main_v0) : FVec Ideal S1x768 .f32)
    = shapeCast S1x768 (m ((c : Thread nD τ).loc main_arg6)) shapeCasts_S768_S1x768 := by
  dsimp only [W1, hostOps0]; after_results <;> rfl
/-- The dense weights in the narrow format. -/
theorem entry_dense (c : Dev nD) : (W1 m ρ c (Proc.devRef .tc main_v1) : FVec Ideal S768x768 .bf16)
    = truncf (F := Ideal) .bf16 (m ((c : Thread nD τ).loc main_arg5) : FVec Ideal S768x768 .f32) bitsLt_bf16_f32 := by
  dsimp only [W1, hostOps0]; after_results <;> rfl
/-- The first 768 rows of the next layer's weights in the narrow format. -/
theorem entry_top (c : Dev nD) : (W1 m ρ c (Proc.devRef .tc main_v3) : FVec Ideal S768x128 .bf16)
    = truncf (F := Ideal) .bf16 (extractStridedSlice S768x128 ![0, 0] (m ((c : Thread nD τ).loc main_arg7)) slices_S770x128_S768x128_0_0 : FVec Ideal S768x128 .f32) bitsLt_bf16_f32 := by
  dsimp only [W1, hostOps0]; after_results <;> rfl
/-- Rows 768 and 769 of the next layer's weights. -/
theorem entry_row768 (c : Dev nD) : (W1 m ρ c (Proc.devRef .tc main_v4) : FVec Ideal S1x128 .f32)
    = extractStridedSlice S1x128 ![768, 0] (m ((c : Thread nD τ).loc main_arg7)) slices_S770x128_S1x128_768_0 := by
  dsimp only [W1, hostOps0]; after_results <;> rfl
theorem entry_row769 (c : Dev nD) : (W1 m ρ c (Proc.devRef .tc main_v5) : FVec Ideal S1x128 .f32)
    = extractStridedSlice S1x128 ![769, 0] (m ((c : Thread nD τ).loc main_arg7)) slices_S770x128_S1x128_769_0 := by
  dsimp only [W1, hostOps0]; after_results <;> rfl

/-! ## The first region's result -/

/-- At the first region's exit its result array holds the fused layer of the launch arrays. -/
theorem region0_result (c : Dev nD) :
    (W2 m ρ c (Proc.devRef .tc main_v6) : FVec Ideal S100000x128 .bf16)
      = Cert.KernelIdeal.Region0.fused (m ((c : Thread nD τ).loc main_arg0))
        (truncf (F := Ideal) .bf16 (m ((c : Thread nD τ).loc main_arg5) : FVec Ideal S768x768 .f32) bitsLt_bf16_f32)
        (shapeCast S1x768 (m ((c : Thread nD τ).loc main_arg6)) shapeCasts_S768_S1x768)
        (truncf (F := Ideal) .bf16 (extractStridedSlice S768x128 ![0, 0] (m ((c : Thread nD τ).loc main_arg7)) slices_S770x128_S768x128_0_0 : FVec Ideal S768x128 .f32) bitsLt_bf16_f32)
        (extractStridedSlice S1x128 ![768, 0] (m ((c : Thread nD τ).loc main_arg7)) slices_S770x128_S1x128_768_0)
        (extractStridedSlice S1x128 ![769, 0] (m ((c : Thread nD τ).loc main_arg7)) slices_S770x128_S1x128_769_0)
        (m ((c : Thread nD τ).loc main_arg1)) (m ((c : Thread nD τ).loc main_arg2)) := by
  refine (W2_arr m ρ c 8).trans ?_
  refine (Cert.KernelIdeal.Region0.result_array (V1 m ρ) c).trans ?_
  dsimp only [V1]
  rw [entry_arg0 m ρ c, entry_dense m ρ c, entry_bias m ρ c, entry_top m ρ c, entry_row768 m ρ c, entry_row769 m ρ c,
    entry_arg1 m ρ c, entry_arg2 m ρ c]

/-! ## The arguments the later stretches read are as launched at the first region's exit -/

theorem exit_arg3 (c : Dev nD) : W2 m ρ c (Proc.devRef .tc main_arg3) = m ((c : Thread nD τ).loc main_arg3) :=
  (W2_of_ne m ρ c main_arg3 (by decide)).trans (by dsimp only [W1, hostOps0]; after_results <;> rfl)
theorem exit_arg4 (c : Dev nD) : W2 m ρ c (Proc.devRef .tc main_arg4) = m ((c : Thread nD τ).loc main_arg4) :=
  (W2_of_ne m ρ c main_arg4 (by decide)).trans (by dsimp only [W1, hostOps0]; after_results <;> rfl)
theorem exit_arg8 (c : Dev nD) : W2 m ρ c (Proc.devRef .tc main_arg8) = m ((c : Thread nD τ).loc main_arg8) :=
  (W2_of_ne m ρ c main_arg8 (by decide)).trans (by dsimp only [W1, hostOps0]; after_results <;> rfl)
theorem exit_arg9 (c : Dev nD) : W2 m ρ c (Proc.devRef .tc main_arg9) = m ((c : Thread nD τ).loc main_arg9) :=
  (W2_of_ne m ρ c main_arg9 (by decide)).trans (by dsimp only [W1, hostOps0]; after_results <;> rfl)
theorem exit_arg10 (c : Dev nD) : W2 m ρ c (Proc.devRef .tc main_arg10) = m ((c : Thread nD τ).loc main_arg10) :=
  (W2_of_ne m ρ c main_arg10 (by decide)).trans (by dsimp only [W1, hostOps0]; after_results <;> rfl)

end Cert.KernelIdeal.HostEntry

end
-- ==== Proof.Layers.lean ====
/-
  The two rounds of message passing, each as ONE function of the node features that enter it.

  Both programs normalise the graph in the same way (self loops of weight 2, inverse square roots of the weighted
  degrees, a coefficient per edge) and both aggregate in the same way: gather the transformed features of every edge's
  source node, scale them by the edge's coefficient, and add them up at the edge's target node. The first round then adds
  a bias and takes the positive part; the second adds a bias. What differs between the programs is only HOW the
  transformed features that enter each round were computed. So each round is named here once, as a function of those
  features and of the graph, spelt with the reference's own operations; the reference's stages are these functions of its
  two matrix products by unfolding, and nothing below ever opens a gather or a scatter.
-/
import proofs.«174872_j45543833207355_2_alg».proof.Proof.Gen.ReferenceIdeal.Read

noncomputable section

namespace Cert.Layers

open Idealize.ShloMosaic Cert.ReferenceIdeal Cert.ReferenceIdeal.Read

/-- The first round before its activation: aggregate the 128 transformed features over the edges and add the bias. -/
def aggregate1 (xw : (⟨S100000x128, .f32⟩ : BufTy).Contents (Elt Ideal)) (x3 : (⟨S2x1600000, .i32⟩ : BufTy).Contents (Elt Ideal))
    (x4 : (⟨S1600000, .f32⟩ : BufTy).Contents (Elt Ideal)) (x8 : (⟨S128, .f32⟩ : BufTy).Contents (Elt Ideal)) : (⟨S100000x128, .f32⟩ : BufTy).Contents (Elt Ideal) :=
  addf (F := Ideal) (φ := .f32)
    (Host.scatterAdd (F := Ideal) (φ := .f32) scatter_S100000x128_S1700000x1_S1700000x128_1_0_0_1 (val_main_v49 (F := Ideal)) (val_main_v50 (F := Ideal) x3)
      (mulf (F := Ideal) (φ := .f32) (val_main_v47 (F := Ideal) x3 x4)
        (Host.gather gather_S100000x128_S1700000x1_S1700000x128_1_0_n_n_0_1_1128 xw (val_main_v45 (F := Ideal) x3))))
    (val_main_v53 (F := Ideal) x8)

/-- The first round: that, and the positive part. -/
def layer1 (xw : (⟨S100000x128, .f32⟩ : BufTy).Contents (Elt Ideal)) (x3 : (⟨S2x1600000, .i32⟩ : BufTy).Contents (Elt Ideal))
    (x4 : (⟨S1600000, .f32⟩ : BufTy).Contents (Elt Ideal)) (x8 : (⟨S128, .f32⟩ : BufTy).Contents (Elt Ideal)) : (⟨S100000x128, .f32⟩ : BufTy).Contents (Elt Ideal) :=
  maximumf (F := Ideal) (φ := .f32) (aggregate1 xw x3 x4 x8) (val_main_call1_v0 (F := Ideal))

/-- The second round: aggregate the 5 transformed features over the edges, add the bias. -/
def layer2 (xw : (⟨S100000x5, .f32⟩ : BufTy).Contents (Elt Ideal)) (x3 : (⟨S2x1600000, .i32⟩ : BufTy).Contents (Elt Ideal))
    (x4 : (⟨S1600000, .f32⟩ : BufTy).Contents (Elt Ideal)) (x10 : (⟨S5, .f32⟩ : BufTy).Contents (Elt Ideal)) : (⟨S100000x5, .f32⟩ : BufTy).Contents (Elt Ideal) :=
  addf (F := Ideal) (φ := .f32)
    (Host.scatterAdd (F := Ideal) (φ := .f32) scatter_S100000x5_S1700000x1_S1700000x5_1_0_0_1 (val_main_v67 (F := Ideal)) (val_main_v68 (F := Ideal) x3)
      (mulf (F := Ideal) (φ := .f32) (val_main_v65 (F := Ideal) x3 x4)
        (Host.gather gather_S100000x5_S1700000x1_S1700000x5_1_0_n_n_0_1_15 xw (val_main_v63 (F := Ideal) x3))))
    (val_main_v71 (F := Ideal) x10)

section
variable (x0 : (⟨S100000x768, .f32⟩ : BufTy).Contents (Elt Ideal)) (x1 x2 : (⟨S100000x1, .f32⟩ : BufTy).Contents (Elt Ideal))
  (x3 : (⟨S2x1600000, .i32⟩ : BufTy).Contents (Elt Ideal)) (x4 : (⟨S1600000, .f32⟩ : BufTy).Contents (Elt Ideal))
  (x5 : (⟨S768x768, .f32⟩ : BufTy).Contents (Elt Ideal)) (x6 : (⟨S768, .f32⟩ : BufTy).Contents (Elt Ideal)) (x7 : (⟨S770x128, .f32⟩ : BufTy).Contents (Elt Ideal))
  (x8 : (⟨S128, .f32⟩ : BufTy).Contents (Elt Ideal)) (x9 : (⟨S128x5, .f32⟩ : BufTy).Contents (Elt Ideal)) (x10 : (⟨S5, .f32⟩ : BufTy).Contents (Elt Ideal))

/-- The reference's hidden features are the first round of its product with the first layer's weights. -/
theorem reference_layer1 :
    val_main_v55 (F := Ideal) x0 x1 x2 x3 x4 x5 x6 x7 x8 = layer1 (val_main_v38 (F := Ideal) x0 x1 x2 x5 x6 x7) x3 x4 x8 := rfl

/-- The reference's result is the second round of the product of its hidden features with the second layer's weights. -/
theorem reference_layer2 :
    val_main_v72 (F := Ideal) x0 x1 x2 x3 x4 x5 x6 x7 x8 x9 x10
      = layer2 (Host.dotGeneral (F := Ideal) (φ₁ := .f32) (φ₂ := .f32) dot_S100000x128_S128x5_S100000x5_1_0_0_1_n_n none
          (layer1 (val_main_v38 (F := Ideal) x0 x1 x2 x5 x6 x7) x3 x4 x8) x9) x3 x4 x10 := rfl
end

end Cert.Layers

end
-- ==== Proof.HostMiddle.lean ====
/-
  Between the two regions: the graph's normalisation, the first round of message passing, and the second layer's weights.

  The host operations between the regions are, operation for operation, the reference's own: the two index rows of the
  edge list extended by the self loops, the weights extended by the self loops' weight 2, the weighted degrees and their
  guarded inverse square roots, the coefficient of every edge; then the first round — gather, scale, scatter-add, bias,
  positive part — applied to the first region's result; and the second layer's weights padded to 128 columns and put in
  the narrow float format. Each buffer the later program reads is identified here with the reference's stage of the same
  name (Read), or with the first round (Layers) of the first region's result, one stretch of operations at a time; a
  buffer a stretch does not write keeps its contents. The calls the program makes to small library functions (a select,
  a positive part, a pad) are read first as the operation they are and only then compared with the reference's stage.
-/
import proofs.«174872_j45543833207355_2_alg».proof.Proof.HostEntry
import proofs.«174872_j45543833207355_2_alg».proof.Proof.Layers
import Idealize.ShloMosaic.Lib.StableHlo.Run

set_option maxRecDepth 16384

noncomputable section

namespace Cert.KernelIdeal.HostMiddle

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## The first stretch: index rows, weights, degrees -/

theorem a_v12 (c : Dev nD) : (W3 m ρ c (Proc.devRef .tc main_v12) : (⟨S1700000, .i32⟩ : BufTy).Contents (Elt Ideal)) = Cert.ReferenceIdeal.Read.val_main_v11 (F := Ideal) (m ((c : Thread nD τ).loc main_arg3)) := by
  rw [← Cert.KernelIdeal.HostEntry.exit_arg3 m ρ c]
  dsimp only [W3, hostOps1]; after_results <;> rfl

theorem a_v13 (c : Dev nD) : (W3 m ρ c (Proc.devRef .tc main_v13) : (⟨S1700000, .i32⟩ : BufTy).Contents (Elt Ideal)) = Cert.ReferenceIdeal.Read.val_main_v12 (F := Ideal) (m ((c : Thread nD τ).loc main_arg3)) := by
  rw [← Cert.KernelIdeal.HostEntry.exit_arg3 m ρ c]
  dsimp only [W3, hostOps1]; after_results <;> rfl

theorem a_v15 (c : Dev nD) : (W3 m ρ c (Proc.devRef .tc main_v15) : (⟨S1700000, .f32⟩ : BufTy).Contents (Elt Ideal)) = Cert.ReferenceIdeal.Read.val_main_v14 (F := Ideal) (m ((c : Thread nD τ).loc main_arg4)) := by
  rw [← Cert.KernelIdeal.HostEntry.exit_arg4 m ρ c]
  dsimp only [W3, hostOps1]; after_results <;> rfl

theorem a_v20 (c : Dev nD) : (W3 m ρ c (Proc.devRef .tc main_v20) : (⟨S100000, .i1⟩ : BufTy).Contents (Elt Ideal)) = Cert.ReferenceIdeal.Read.val_main_v19 (F := Ideal) (m ((c : Thread nD τ).loc main_arg3)) (m ((c : Thread nD τ).loc main_arg4)) := by
  rw [← Cert.KernelIdeal.HostEntry.exit_arg3 m ρ c, ← Cert.KernelIdeal.HostEntry.exit_arg4 m ρ c]
  dsimp only [W3, hostOps1]; after_results <;> rfl

theorem a_v21 (c : Dev nD) : (W3 m ρ c (Proc.devRef .tc main_v21) : (⟨S100000, .f32⟩ : BufTy).Contents (Elt Ideal)) = Cert.ReferenceIdeal.Read.val_main_v20 (F := Ideal) (m ((c : Thread nD τ).loc main_arg3)) (m ((c : Thread nD τ).loc main_arg4)) := by
  rw [← Cert.KernelIdeal.HostEntry.exit_arg3 m ρ c, ← Cert.KernelIdeal.HostEntry.exit_arg4 m ρ c]
  dsimp only [W3, hostOps1]; after_results <;> rfl

theorem a_cst_2 (c : Dev nD) : (W3 m ρ c (Proc.devRef .tc main_cst_2) : (⟨S_, .f32⟩ : BufTy).Contents (Elt Ideal)) = Cert.ReferenceIdeal.Read.val_main_cst_2 (F := Ideal) := by
  dsimp only [W3, hostOps1]; after_results <;> rfl
theorem a_v6 (c : Dev nD) : W3 m ρ c (Proc.devRef .tc main_v6) = W2 m ρ c (Proc.devRef .tc main_v6) := by
  dsimp only [W3, hostOps1]; after_results <;> rfl
theorem a_arg8 (c : Dev nD) : W3 m ρ c (Proc.devRef .tc main_arg8) = (m ((c : Thread nD τ).loc main_arg8)) := by
  rw [← Cert.KernelIdeal.HostEntry.exit_arg8 m ρ c]
  dsimp only [W3, hostOps1]; after_results <;> rfl

theorem a_arg9 (c : Dev nD) : W3 m ρ c (Proc.devRef .tc main_arg9) = (m ((c : Thread nD τ).loc main_arg9)) := by
  rw [← Cert.KernelIdeal.HostEntry.exit_arg9 m ρ c]
  dsimp only [W3, hostOps1]; after_results <;> rfl

theorem a_arg10 (c : Dev nD) : W3 m ρ c (Proc.devRef .tc main_arg10) = (m ((c : Thread nD τ).loc main_arg10)) := by
  rw [← Cert.KernelIdeal.HostEntry.exit_arg10 m ρ c]
  dsimp only [W3, hostOps1]; after_results <;> rfl

/-! ## The guarded inverse square root (a library select, inlined) -/

theorem where_read (c : Dev nD) : (W4 m ρ c (Proc.devRef .tc main_v22) : (⟨S100000, .f32⟩ : BufTy).Contents (Elt Ideal))
    = select (W3 m ρ c (Proc.devRef .tc main_v20) : (⟨S100000, .i1⟩ : BufTy).Contents (Elt Ideal)) (W3 m ρ c (Proc.devRef .tc main_v21) : (⟨S100000, .f32⟩ : BufTy).Contents (Elt Ideal))
        (broadcastInDim S100000 ![] bcast_S_S100000 (W3 m ρ c (Proc.devRef .tc main_cst_2) : (⟨S_, .f32⟩ : BufTy).Contents (Elt Ideal))) := by
  dsimp only [W4, hostOps1_1]
  generalize W3 m ρ c = V
  after_results <;> rfl

theorem b1_v22 (c : Dev nD) : (W4 m ρ c (Proc.devRef .tc main_v22) : (⟨S100000, .f32⟩ : BufTy).Contents (Elt Ideal)) = Cert.ReferenceIdeal.Read.val_main_v21 (F := Ideal) (m ((c : Thread nD τ).loc main_arg3)) (m ((c : Thread nD τ).loc main_arg4)) := by
  rw [where_read m ρ c, a_v20 m ρ c, a_v21 m ρ c, a_cst_2 m ρ c]
  unfold Cert.ReferenceIdeal.Read.val_main_v21 Cert.ReferenceIdeal.Read.val_main_call0_v1 Cert.ReferenceIdeal.Read.val_main_call0_v0
  rfl

theorem b1_v12 (c : Dev nD) : (W4 m ρ c (Proc.devRef .tc main_v12) : (⟨S1700000, .i32⟩ : BufTy).Contents (Elt Ideal)) = Cert.ReferenceIdeal.Read.val_main_v11 (F := Ideal) (m ((c : Thread nD τ).loc main_arg3)) := by
  refine Eq.trans ?_ (a_v12 m ρ c)
  dsimp only [W4, hostOps1_1]
  generalize W3 m ρ c = V
  after_results <;> rfl

theorem b1_v13 (c : Dev nD) : (W4 m ρ c (Proc.devRef .tc main_v13) : (⟨S1700000, .i32⟩ : BufTy).Contents (Elt Ideal)) = Cert.ReferenceIdeal.Read.val_main_v12 (F := Ideal) (m ((c : Thread nD τ).loc main_arg3)) := by
  refine Eq.trans ?_ (a_v13 m ρ c)
  dsimp only [W4, hostOps1_1]
  generalize W3 m ρ c = V
  after_results <;> rfl

theorem b1_v15 (c : Dev nD) : (W4 m ρ c (Proc.devRef .tc main_v15) : (⟨S1700000, .f32⟩ : BufTy).Contents (Elt Ideal)) = Cert.ReferenceIdeal.Read.val_main_v14 (F := Ideal) (m ((c : Thread nD τ).loc main_arg4)) := by
  refine Eq.trans ?_ (a_v15 m ρ c)
  dsimp only [W4, hostOps1_1]
  generalize W3 m ρ c = V
  after_results <;> rfl

theorem b1_v6 (c : Dev nD) : (W4 m ρ c (Proc.devRef .tc main_v6) : (⟨S100000x128, .bf16⟩ : BufTy).Contents (Elt Ideal)) = W2 m ρ c (Proc.devRef .tc main_v6) := by
  refine Eq.trans ?_ (a_v6 m ρ c)
  dsimp only [W4, hostOps1_1]
  generalize W3 m ρ c = V
  after_results <;> rfl

theorem b1_arg8 (c : Dev nD) : (W4 m ρ c (Proc.devRef .tc main_arg8) : (⟨S128, .f32⟩ : BufTy).Contents (Elt Ideal)) = (m ((c : Thread nD τ).loc main_arg8)) := by
  refine Eq.trans ?_ (a_arg8 m ρ c)
  dsimp only [W4, hostOps1_1]
  generalize W3 m ρ c = V
  after_results <;> rfl

theorem b1_arg9 (c : Dev nD) : (W4 m ρ c (Proc.devRef .tc main_arg9) : (⟨S128x5, .f32⟩ : BufTy).Contents (Elt Ideal)) = (m ((c : Thread nD τ).loc main_arg9)) := by
  refine Eq.trans ?_ (a_arg9 m ρ c)
  dsimp only [W4, hostOps1_1]
  generalize W3 m ρ c = V
  after_results <;> rfl

theorem b1_arg10 (c : Dev nD) : (W4 m ρ c (Proc.devRef .tc main_arg10) : (⟨S5, .f32⟩ : BufTy).Contents (Elt Ideal)) = (m ((c : Thread nD τ).loc main_arg10)) := by
  refine Eq.trans ?_ (a_arg10 m ρ c)
  dsimp only [W4, hostOps1_1]
  generalize W3 m ρ c = V
  after_results <;> rfl

/-! ## The coefficients and the first round's aggregate -/

set_option maxHeartbeats 2000000 in
theorem b2_v38 (c : Dev nD) : (W5 m ρ c (Proc.devRef .tc main_v38) : (⟨S1700000, .f32⟩ : BufTy).Contents (Elt Ideal)) = Cert.ReferenceIdeal.Read.val_main_v37 (F := Ideal) (m ((c : Thread nD τ).loc main_arg3)) (m ((c : Thread nD τ).loc main_arg4)) := by
  have h12 := b1_v12 m ρ c
  have h13 := b1_v13 m ρ c
  have h15 := b1_v15 m ρ c
  have h22 := b1_v22 m ρ c
  dsimp only [W5, hostOps1_2]
  generalize W4 m ρ c = V at h12 h13 h15 h22 ⊢
  after_results_simp
  rw [h12, h13, h15, h22]
  rfl

set_option maxHeartbeats 4000000 in
/-- The first round before its activation, of the first region's result. -/
theorem b2_v55 (c : Dev nD) : (W5 m ρ c (Proc.devRef .tc main_v55) : (⟨S100000x128, .f32⟩ : BufTy).Contents (Elt Ideal))
    = Cert.Layers.aggregate1 (W2 m ρ c (Proc.devRef .tc main_v6) : (⟨S100000x128, .bf16⟩ : BufTy).Contents (Elt Ideal)) (m ((c : Thread nD τ).loc main_arg3)) (m ((c : Thread nD τ).loc main_arg4)) (m ((c : Thread nD τ).loc main_arg8)) := by
  have h6 := b1_v6 m ρ c
  have h8 := b1_arg8 m ρ c
  have h12 := b1_v12 m ρ c
  have h13 := b1_v13 m ρ c
  have h15 := b1_v15 m ρ c
  have h22 := b1_v22 m ρ c
  dsimp only [W5, hostOps1_2]
  generalize W4 m ρ c = V at h6 h8 h12 h13 h15 h22 ⊢
  after_results_simp
  rw [h6, h8, h12, h13, h15, h22]
  rfl

theorem b2_v12 (c : Dev nD) : (W5 m ρ c (Proc.devRef .tc main_v12) : (⟨S1700000, .i32⟩ : BufTy).Contents (Elt Ideal)) = Cert.ReferenceIdeal.Read.val_main_v11 (F := Ideal) (m ((c : Thread nD τ).loc main_arg3)) := by
  refine Eq.trans ?_ (b1_v12 m ρ c)
  dsimp only [W5, hostOps1_2]
  generalize W4 m ρ c = V
  after_results_simp <;> rfl

theorem b2_v13 (c : Dev nD) : (W5 m ρ c (Proc.devRef .tc main_v13) : (⟨S1700000, .i32⟩ : BufTy).Contents (Elt Ideal)) = Cert.ReferenceIdeal.Read.val_main_v12 (F := Ideal) (m ((c : Thread nD τ).loc main_arg3)) := by
  refine Eq.trans ?_ (b1_v13 m ρ c)
  dsimp only [W5, hostOps1_2]
  generalize W4 m ρ c = V
  after_results_simp <;> rfl

theorem b2_arg9 (c : Dev nD) : (W5 m ρ c (Proc.devRef .tc main_arg9) : (⟨S128x5, .f32⟩ : BufTy).Contents (Elt Ideal)) = (m ((c : Thread nD τ).loc main_arg9)) := by
  refine Eq.trans ?_ (b1_arg9 m ρ c)
  dsimp only [W5, hostOps1_2]
  generalize W4 m ρ c = V
  after_results_simp <;> rfl

theorem b2_arg10 (c : Dev nD) : (W5 m ρ c (Proc.devRef .tc main_arg10) : (⟨S5, .f32⟩ : BufTy).Contents (Elt Ideal)) = (m ((c : Thread nD τ).loc main_arg10)) := by
  refine Eq.trans ?_ (b1_arg10 m ρ c)
  dsimp only [W5, hostOps1_2]
  generalize W4 m ρ c = V
  after_results_simp <;> rfl

/-! ## The positive part, the padded weights, and what passes through to the second region's entry -/

theorem relu_read (c : Dev nD) : (W9 m ρ c (Proc.devRef .tc main_v56) : (⟨S100000x128, .f32⟩ : BufTy).Contents (Elt Ideal))
    = maximumf (F := Ideal) (φ := .f32) (W5 m ρ c (Proc.devRef .tc main_v55) : (⟨S100000x128, .f32⟩ : BufTy).Contents (Elt Ideal))
        (broadcastInDim S100000x128 ![] bcast_S_S100000x128 (constant (F := Ideal) S_ .f32 0x00000000#32)) := by
  dsimp only [W9, W8, W7, W6, hostOps1_3, hostOps1_4, hostOps1_5, hostOps1_6]
  generalize W5 m ρ c = V
  after_results <;> rfl

/-- The hidden features at the second region's entry: the first round of the first region's result. -/
theorem c_v56 (c : Dev nD) : (W9 m ρ c (Proc.devRef .tc main_v56) : (⟨S100000x128, .f32⟩ : BufTy).Contents (Elt Ideal))
    = Cert.Layers.layer1 (W2 m ρ c (Proc.devRef .tc main_v6) : (⟨S100000x128, .bf16⟩ : BufTy).Contents (Elt Ideal)) (m ((c : Thread nD τ).loc main_arg3)) (m ((c : Thread nD τ).loc main_arg4)) (m ((c : Thread nD τ).loc main_arg8)) := by
  rw [relu_read m ρ c, b2_v55 m ρ c]
  unfold Cert.Layers.layer1 Cert.ReferenceIdeal.Read.val_main_call1_v0 Cert.ReferenceIdeal.Read.val_main_call1_cst
  rfl

theorem pad_read (c : Dev nD) : (W9 m ρ c (Proc.devRef .tc main_v58) : FVec Ideal S128x128 .bf16)
    = truncf (F := Ideal) .bf16
        (pad S128x128 ![0, 0] ![0, 123] ![0, 0] (W5 m ρ c (Proc.devRef .tc main_arg9) : (⟨S128x5, .f32⟩ : BufTy).Contents (Elt Ideal))
          (sitofp (F := Ideal) .f32 (constantI S_ 32 0#32)) pads_S128x5_S128x128_000_01230 h_S_) bitsLt_bf16_f32 := by
  dsimp only [W9, W8, W7, W6, hostOps1_3, hostOps1_4, hostOps1_5, hostOps1_6]
  generalize W5 m ρ c = V
  after_results <;> rfl

/-- The second layer's weights at the second region's entry: padded to 128 columns, in the narrow format. -/
theorem c_v58 (c : Dev nD) : (W9 m ρ c (Proc.devRef .tc main_v58) : FVec Ideal S128x128 .bf16)
    = truncf (F := Ideal) .bf16
        (pad S128x128 ![0, 0] ![0, 123] ![0, 0] (m ((c : Thread nD τ).loc main_arg9))
          (sitofp (F := Ideal) .f32 (constantI S_ 32 0#32)) pads_S128x5_S128x128_000_01230 h_S_) bitsLt_bf16_f32 := by
  rw [pad_read m ρ c, b2_arg9 m ρ c]

theorem c_v12 (c : Dev nD) : (W9 m ρ c (Proc.devRef .tc main_v12) : (⟨S1700000, .i32⟩ : BufTy).Contents (Elt Ideal)) = Cert.ReferenceIdeal.Read.val_main_v11 (F := Ideal) (m ((c : Thread nD τ).loc main_arg3)) := by
  refine Eq.trans ?_ (b2_v12 m ρ c)
  dsimp only [W9, W8, W7, W6, hostOps1_3, hostOps1_4, hostOps1_5, hostOps1_6]
  generalize W5 m ρ c = V
  after_results <;> rfl

theorem c_v13 (c : Dev nD) : (W9 m ρ c (Proc.devRef .tc main_v13) : (⟨S1700000, .i32⟩ : BufTy).Contents (Elt Ideal)) = Cert.ReferenceIdeal.Read.val_main_v12 (F := Ideal) (m ((c : Thread nD τ).loc main_arg3)) := by
  refine Eq.trans ?_ (b2_v13 m ρ c)
  dsimp only [W9, W8, W7, W6, hostOps1_3, hostOps1_4, hostOps1_5, hostOps1_6]
  generalize W5 m ρ c = V
  after_results <;> rfl

theorem c_v38 (c : Dev nD) : (W9 m ρ c (Proc.devRef .tc main_v38) : (⟨S1700000, .f32⟩ : BufTy).Contents (Elt Ideal)) = Cert.ReferenceIdeal.Read.val_main_v37 (F := Ideal) (m ((c : Thread nD τ).loc main_arg3)) (m ((c : Thread nD τ).loc main_arg4)) := by
  refine Eq.trans ?_ (b2_v38 m ρ c)
  dsimp only [W9, W8, W7, W6, hostOps1_3, hostOps1_4, hostOps1_5, hostOps1_6]
  generalize W5 m ρ c = V
  after_results <;> rfl

theorem c_arg10 (c : Dev nD) : (W9 m ρ c (Proc.devRef .tc main_arg10) : (⟨S5, .f32⟩ : BufTy).Contents (Elt Ideal)) = (m ((c : Thread nD τ).loc main_arg10)) := by
  refine Eq.trans ?_ (b2_arg10 m ρ c)
  dsimp only [W9, W8, W7, W6, hostOps1_3, hostOps1_4, hostOps1_5, hostOps1_6]
  generalize W5 m ρ c = V
  after_results <;> rfl

end Cert.KernelIdeal.HostMiddle

end
-- ==== Proof.Region1.lean ====
/-
  The second grid region: a row-blocked matrix product.

  The region walks the 100000 rows of its left operand in 50 blocks of 2000 rows; at each block it multiplies the block by
  the whole 128 x 128 right operand and writes the 2000 x 128 product back as the same rows of the result. Entry (p, q)
  of a block's product is the sum over k of (row p of the block)(k) times right (k, q), so it reads the left operand
  through one row only, and that row of the block is row 2000 t + p of the array. Hence the result array, whose blocks
  tile it, holds at (i, j) the sum over k of left (i, k) times right (k, j): the product of the two whole arrays.
-/
import proofs.«174872_j45543833207355_2_alg».proof.Proof.Gen.KernelIdeal.Frame
import proofs.«174872_j45543833207355_2_alg».proof.Proof.LibPlainDot
import Idealize.ShloMosaic.Lib.Pipeline.Value
import Idealize.ShloMosaic.Lib.ValueIdx

set_option maxRecDepth 16384

noncomputable section

namespace Cert.KernelIdeal.Region1

open Idealize.ShloMosaic Idealize.ShloMosaic.TcCoe Idealize.ShloMosaic.ValueIdx Idealize.SL.Sem
open Idealize.ShloMosaic.Pipeline (Dat Cfg Window)
open Cert.KernelIdeal Cert.KernelIdeal.Gen

/-- The product of a 100000 x 128 array with a 128 x 128 array, entry by entry. -/
def timesSquare (x : FVec Ideal S100000x128 .f32) (w : FVec Ideal S128x128 .bf16) : FVec Ideal S100000x128 .f32 :=
  fun i => ∑ k : Fin 128, x (ix2 (i 0) k) * w (ix2 k (i 1))

theorem zero_offsets : (![0, 0] : Fin 2 → Nat) = fun _ => 0 := funext fun a => by fin_cases a <;> rfl

/-- The body's product contracts the left operand's columns with the right operand's rows and has no batch axis. -/
theorem plain : Cert.PlainDot.IsPlain dot_S2000x128_S128x128_S2000x128_1_0_0_1_n_n := ⟨rfl, rfl, rfl, rfl, rfl, rfl⟩

/-- What the body stores, at entry (p, q) of the block: the sum over k of the loaded block at (p, k) times the loaded
    right operand at (k, q). The change of format in front of the product is the identity on extended reals, and the
    accumulator it adds into is zero. -/
theorem stored_apply (v0 : Vec Ideal S2000x128 .f32) (v3 : Vec Ideal S128x128 .bf16) (p : Fin 2000) (q : Fin 128) :
    k1_pay1 v0 v3 (ix2 p q) = ∑ k : Fin 128, v0 (ix2 p k) * v3 (ix2 k q) := by
  unfold k1_pay1
  refine (Cert.PlainDot.matmul_apply dot_S2000x128_S128x128_S2000x128_1_0_0_1_n_n plain none _ _ p q).trans ?_
  rw [shapeCast_self, shapeCast_self]
  rfl

/-- A block's stored product at `y` is the whole arrays' product at `i`, as soon as row `y 0` of the block is row `i 0`
    of the array, the loaded right operand is the array's, and the two indices name the same column. -/
theorem stored_eq_timesSquare (x0 : Vec Ideal S2000x128 .f32) (x1 : Vec Ideal S128x128 .bf16)
    (A : FVec Ideal S100000x128 .f32) (B : FVec Ideal S128x128 .bf16) (y : S2000x128.Idx) (i : S100000x128.Idx)
    (hrow : ∀ k : Fin 128, x0 (ix2 (y 0) k) = A (ix2 (i 0) k)) (hw : ∀ k q : Fin 128, x1 (ix2 k q) = B (ix2 k q))
    (hcol : (i 1).val = (y 1).val) : k1_pay1 x0 x1 y = timesSquare A B i := by
  obtain ⟨p, q, rfl⟩ : ∃ (p : Fin 2000) (q : Fin 128), y = ix2 p q := ⟨y 0, y 1, eq_ix2 y⟩
  rw [stored_apply]
  unfold timesSquare
  refine Finset.sum_congr rfl fun k _ => ?_
  have h1 : x0 (ix2 p k) = A (ix2 (i 0) k) := hrow k
  have h2 : x1 (ix2 k q) = B (ix2 k q) := hw k q
  have e : (i 1 : Fin 128) = q := Fin.ext hcol
  exact congrArg₂ (· * ·) h1 (h2.trans (congrArg (fun z : Fin 128 => B (ix2 k z)) e.symm))

/-- The printed index maps over the grid: the left operand's and the result's blocks are at (t, 0), the right operand's
    one block at (0, 0). -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

section
variable (V : (c : Dev nD) → (b : Ref sig .tc) → Buf (Elt Ideal) ((c : Thread nD τ).loc b))

/-- What point `t` writes back is block `t` of the product of the two arrays as the region finds them. -/
theorem flushed_eq (c : Dev nD) (t : Fin cfg1.N) :
    (dat1 V c).flushed 2 t = ((cfg1.win 2).blk t).view.read (Elt Ideal) (timesSquare (V c main_v56) (V c main_v58)) := by
  show (cfg1.win 2).cut (grid1.coords t) ((dat1 V c).after 2 t) = _
  rw [after1_2]
  unfold out1_2
  rw [View.canon_unit_zero zero_offsets]
  simp only [View.ld_unit_zero (S := S2000x128) zero_offsets, View.ld_unit_zero (S := S128x128) zero_offsets]
  obtain ⟨e00, e01, e10, e11, e20, e21⟩ := index_facts t
  funext j
  show k1_pay1 (iblk1 V c 0 t) (iblk1 V c 1 t) j
    = timesSquare (V c main_v56) (V c main_v58) (((cfg1.win 2).blk t).view.emb j)
  refine stored_eq_timesSquare (iblk1 V c 0 t) (iblk1 V c 1 t) (V c main_v56) (V c main_v58) j
    (((cfg1.win 2).blk t).view.emb j) (fun k => ?_) (fun k q => ?_) ?_
  · show V c main_v56 (((cfg1.win 0).blk t).view.emb (ix2 (j 0) k)) = V c main_v56 (ix2 ((((cfg1.win 2).blk t).view.emb j) 0) k)
    refine congrArg (V c main_v56) (funext fun a => Fin.ext ?_)
    match a with
    | ⟨0, _⟩ =>
      show win1_0.index t (0 : Fin 2) * 2000 + 1 * (j 0).val = win1_2.index t (0 : Fin 2) * 2000 + 1 * (j 0).val
      rw [e00, e20]
    | ⟨1, _⟩ =>
      show win1_0.index t (1 : Fin 2) * 128 + 1 * k.val = k.val
      rw [e01]; omega
  · show V c main_v58 (((cfg1.win 1).blk t).view.emb (ix2 k q)) = V c main_v58 (ix2 k q)
    refine congrArg (V c main_v58) (funext fun a => Fin.ext ?_)
    match a with
    | ⟨0, _⟩ =>
      show win1_1.index t (0 : Fin 2) * 128 + 1 * k.val = k.val
      rw [e10]; omega
    | ⟨1, _⟩ =>
      show win1_1.index t (1 : Fin 2) * 128 + 1 * q.val = q.val
      rw [e11]; omega
  · show win1_2.index t (1 : Fin 2) * 128 + 1 * (j 1).val = (j 1).val
    rw [e21]; omega

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S2000x128.size a ≤ (i a).val
      ∧ (i a).val < win1_2.index t a * S2000x128.size a + S2000x128.size a := by
  show i ∈ ((View.whole main_v59).slice (win1_2.rect t)).set ↔ _
  rw [View.set_slice_whole, Rect.mem_set_unit]
  exact Iff.rfl

/-- Every index of the result array is in some written-back block: row `r` is in block `r / 2000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  have hN : cfg1.N = 50 := N_1
  let t : Fin cfg1.N := ⟨(i 0).val / 2000, by rw [hN]; omega⟩
  obtain ⟨-, -, -, -, e20, e21⟩ := index_facts t
  have ht : t.val = (i 0).val / 2000 := rfl
  refine ⟨t, flush1_2 t, ?_⟩
  rw [mem_block]
  intro a
  match a with
  | ⟨0, _⟩ =>
    show win1_2.index t (0 : Fin 2) * 2000 ≤ (i 0).val ∧ (i 0).val < win1_2.index t (0 : Fin 2) * 2000 + 2000
    rw [e20, ht]; omega
  | ⟨1, _⟩ =>
    show win1_2.index t (1 : Fin 2) * 128 ≤ (i 1).val ∧ (i 1).val < win1_2.index t (1 : Fin 2) * 128 + 128
    rw [e21]; omega

/-- The result array after the region: the product of the two arrays the region was entered with. -/
theorem result_array (c : Dev nD) :
    (dat1 V c).arrAt 2 cfg1.N = timesSquare (V c main_v56) (V c main_v58) :=
  (dat1 V c).arrAt_eq_of_cover 2 (timesSquare (V c main_v56) (V c main_v58)) (fun t _ => flushed_eq V c t) (covered)

end

end Cert.KernelIdeal.Region1

end
-- ==== Proof.SumSplit.lean ====
/-
  Two facts about finite sums in a commutative monoid, used to join a product over a concatenated axis with the
  products over its pieces.
-/
import Mathlib.Algebra.BigOperators.Fin

namespace Cert.SumSplit

open scoped BigOperators

/-- A sum over `n + 2` indices is the sum over the first `n` of them, plus the term at `n`, plus the term at `n + 1`.
    Only associativity of addition is used, so it holds of extended reals whatever the terms are. -/
theorem sum_last_two {M : Type*} [AddCommMonoid M] (n : ℕ) (f : Fin (n + 2) → M) :
    ∑ k : Fin (n + 2), f k
      = (∑ k : Fin n, f ⟨k.val, Nat.lt_of_lt_of_le k.isLt (Nat.le_add_right n 2)⟩)
        + f ⟨n, Nat.lt_add_of_pos_right (by decide)⟩ + f ⟨n + 1, Nat.add_lt_add_left (by decide) n⟩ := by
  rw [Fin.sum_univ_castSucc, Fin.sum_univ_castSucc]
  rfl

end Cert.SumSplit
-- ==== Proof.FirstLayer.lean ====
/-
  The first layer's transform: a product over a concatenated axis is the sum of the products over its pieces.

  The reference concatenates the 768 hidden activations of a node with its two side features into 770 features and
  multiplies by the 770 x 128 weight matrix. The kernel never forms the concatenation: it multiplies the activations by
  the first 768 rows of the matrix and adds the two remaining rows scaled by the two side features. Entry (r, q) of the
  reference's product is a sum over 770 indices; splitting off its last two terms, which needs only that addition is
  associative, leaves the sum over the first 768 — where the concatenation reads the activations — plus the two terms
  where it reads the side features. The activations agree because a product into a zero accumulator and the host's
  product are the same contraction, the two tanh are one function on extended reals, and a change of float format is
  the identity there. No finiteness is used.
-/
import proofs.«174872_j45543833207355_2_alg».proof.Proof.Region0
import proofs.«174872_j45543833207355_2_alg».proof.Proof.LibPlainDot
import proofs.«174872_j45543833207355_2_alg».proof.Proof.SumSplit
import proofs.«174872_j45543833207355_2_alg».proof.Proof.Gen.ReferenceIdeal.Read
import Idealize.ShloMosaic.Lib.Pipeline.Value
import Idealize.ShloMosaic.Lib.ValueLayout
import Idealize.ShloMosaic.Lib.ValueIdx

set_option maxRecDepth 16384

noncomputable section

namespace Cert.FirstLayer

open Idealize.ShloMosaic Idealize.ShloMosaic.ValueIdx
open Cert.ReferenceIdeal Cert.ReferenceIdeal.Gen Cert.ReferenceIdeal.Read

section
variable (E : (⟨S100000x768, .f32⟩ : BufTy).Contents (Elt Ideal)) (P T : (⟨S100000x1, .f32⟩ : BufTy).Contents (Elt Ideal))
  (Wd : (⟨S768x768, .f32⟩ : BufTy).Contents (Elt Ideal)) (bd : (⟨S768, .f32⟩ : BufTy).Contents (Elt Ideal)) (W1 : (⟨S770x128, .f32⟩ : BufTy).Contents (Elt Ideal))

/-- Row `k` of the first 768 rows of the 770-row weight matrix. -/
abbrev top (k : Fin 768) : Fin 770 := ⟨k.val, Nat.lt_of_lt_of_le k.isLt (by decide)⟩

/-- The transformed features of node `r` at output feature `q`, written out. -/
def transformed (r : Fin 100000) (q : Fin 128) : EReal :=
  ((∑ k : Fin 768, Ideal.tanh ((∑ l : Fin 768, E (ix2 r l) * Wd (ix2 l k)) + bd (ix1 k)) * W1 (ix2 (top k) q))
      + P (ix2 r (0 : Fin 1)) * W1 (ix2 (⟨768, by decide⟩ : Fin 770) q))
    + T (ix2 r (0 : Fin 1)) * W1 (ix2 (⟨769, by decide⟩ : Fin 770) q)

/-- The kernel's fused layer, on the parameter arrays as its host operations prepare them — the dense weights and the
    first 768 rows of the next weights in the narrow format, the bias as a row, the last two rows cut out —, is that. -/
theorem fused_eq (r : Fin 100000) (q : Fin 128) :
    Cert.KernelIdeal.Region0.fused E
        (truncf (F := Ideal) .bf16 (Wd : FVec Ideal S768x768 .f32) Cert.KernelIdeal.Gen.bitsLt_bf16_f32)
        (shapeCast S1x768 bd Cert.KernelIdeal.Gen.shapeCasts_S768_S1x768)
        (truncf (F := Ideal) .bf16 (extractStridedSlice Cert.KernelIdeal.S768x128 ![0, 0] W1 Cert.KernelIdeal.Gen.slices_S770x128_S768x128_0_0 : FVec Ideal Cert.KernelIdeal.S768x128 .f32) Cert.KernelIdeal.Gen.bitsLt_bf16_f32)
        (extractStridedSlice S1x128 ![768, 0] W1 Cert.KernelIdeal.Gen.slices_S770x128_S1x128_768_0)
        (extractStridedSlice S1x128 ![769, 0] W1 Cert.KernelIdeal.Gen.slices_S770x128_S1x128_769_0) P T (ix2 r q)
      = transformed E P T Wd bd W1 r q := by
  unfold Cert.KernelIdeal.Region0.fused transformed
  refine congrArg₂ (· + ·) (congrArg₂ (· + ·) ?_ ?_) ?_
  · refine Finset.sum_congr rfl fun k _ => congrArg₂ (· * ·) (congrArg Ideal.tanh (congrArg₂ (· + ·) rfl ?_)) ?_
    · exact shapeCast_a_1a_apply bd Cert.KernelIdeal.Gen.shapeCasts_S768_S1x768 (0 : Fin 1) k
    · exact slice2_axis0_apply 0 W1 Cert.KernelIdeal.Gen.slices_S770x128_S768x128_0_0 k q (top k) (Nat.zero_add _).symm
  · refine congrArg (P (ix2 r (0 : Fin 1)) * ·) ?_
    exact slice2_axis0_apply 768 W1 Cert.KernelIdeal.Gen.slices_S770x128_S1x128_768_0 (0 : Fin 1) q ⟨768, by decide⟩ rfl
  · refine congrArg (T (ix2 r (0 : Fin 1)) * ·) ?_
    exact slice2_axis0_apply 769 W1 Cert.KernelIdeal.Gen.slices_S770x128_S1x128_769_0 (0 : Fin 1) q ⟨769, by decide⟩ rfl

/-- The reference's products contract the left operand's columns with the right operand's rows, with no batch axis. -/
theorem plain_dense : Cert.PlainDot.IsPlain dot_S100000x768_S768x768_S100000x768_1_0_0_1_n_n := ⟨rfl, rfl, rfl, rfl, rfl, rfl⟩
theorem plain_next : Cert.PlainDot.IsPlain dot_S100000x770_S770x128_S100000x128_1_0_0_1_n_n := ⟨rfl, rfl, rfl, rfl, rfl, rfl⟩

/-- The reference's hidden activation of node `r` at `k`. -/
theorem activation_apply (r : Fin 100000) (k : Fin 768) :
    val_main_v4 (F := Ideal) E Wd bd (ix2 r k) = Ideal.tanh ((∑ l : Fin 768, E (ix2 r l) * Wd (ix2 l k)) + bd (ix1 k)) := by
  show Ideal.tanh (val_main_v0 (F := Ideal) E Wd (ix2 r k) + val_main_v2 (F := Ideal) bd (ix2 r k)) = _
  refine congrArg Ideal.tanh (congrArg₂ (· + ·) ?_ ?_)
  · exact Cert.PlainDot.dotGeneral_apply dot_S100000x768_S768x768_S100000x768_1_0_0_1_n_n plain_dense none E Wd r k
  · rw [val_main_v2_apply, val_main_v1_apply]
    exact congrArg bd (funext fun a => by match a with | ⟨0, _⟩ => rfl)

/-- The concatenated features of node `r`: the activations, then the two side features. -/
theorem features_top (r : Fin 100000) (k : Fin 768) :
    val_main_v5 (F := Ideal) E P T Wd bd (ix2 r (top k)) = val_main_v4 (F := Ideal) E Wd bd (ix2 r k) := by
  unfold val_main_v5
  refine concatenate_apply_piece (t := S100000x770) (α := Elt Ideal .f32) (1 : Fin 2)
    [⟨S100000x768, val_main_v4 (F := Ideal) E Wd bd⟩, ⟨S100000x1, P⟩, ⟨S100000x1, T⟩]
    concatenates_S100000x768_S100000x1_S100000x1_S100000x770_d1 (ix2 r (top k))
    0 (by show (0 : ℕ) < 3; decide) S100000x768 _ rfl rfl 0 rfl (ix2 r k) (fun b hb => ?_) (Nat.zero_add _)
  match b with
  | ⟨0, _⟩ => rfl
  | ⟨1, _⟩ => exact absurd rfl hb
theorem features_768 (r : Fin 100000) :
    val_main_v5 (F := Ideal) E P T Wd bd (ix2 r (⟨768, by decide⟩ : Fin 770)) = P (ix2 r (0 : Fin 1)) := by
  unfold val_main_v5
  refine concatenate_apply_piece (t := S100000x770) (α := Elt Ideal .f32) (1 : Fin 2)
    [⟨S100000x768, val_main_v4 (F := Ideal) E Wd bd⟩, ⟨S100000x1, P⟩, ⟨S100000x1, T⟩]
    concatenates_S100000x768_S100000x1_S100000x1_S100000x770_d1 (ix2 r (⟨768, by decide⟩ : Fin 770))
    1 (by show (1 : ℕ) < 3; decide) S100000x1 _ rfl rfl 768 rfl (ix2 r (0 : Fin 1)) (fun b hb => ?_) rfl
  match b with
  | ⟨0, _⟩ => rfl
  | ⟨1, _⟩ => exact absurd rfl hb
theorem features_769 (r : Fin 100000) :
    val_main_v5 (F := Ideal) E P T Wd bd (ix2 r (⟨769, by decide⟩ : Fin 770)) = T (ix2 r (0 : Fin 1)) := by
  unfold val_main_v5
  refine concatenate_apply_piece (t := S100000x770) (α := Elt Ideal .f32) (1 : Fin 2)
    [⟨S100000x768, val_main_v4 (F := Ideal) E Wd bd⟩, ⟨S100000x1, P⟩, ⟨S100000x1, T⟩]
    concatenates_S100000x768_S100000x1_S100000x1_S100000x770_d1 (ix2 r (⟨769, by decide⟩ : Fin 770))
    2 (by show (2 : ℕ) < 3; decide) S100000x1 _ rfl rfl 769 rfl (ix2 r (0 : Fin 1)) (fun b hb => ?_) rfl
  match b with
  | ⟨0, _⟩ => rfl
  | ⟨1, _⟩ => exact absurd rfl hb

/-- The reference's product of the concatenated features with the weights is the same expression. -/
theorem reference_eq (r : Fin 100000) (q : Fin 128) :
    val_main_v38 (F := Ideal) E P T Wd bd W1 (ix2 r q) = transformed E P T Wd bd W1 r q := by
  unfold val_main_v38
  refine (Cert.PlainDot.dotGeneral_apply dot_S100000x770_S770x128_S100000x128_1_0_0_1_n_n plain_next none
    (val_main_v5 (F := Ideal) E P T Wd bd) W1 r q).trans ?_
  refine (Cert.SumSplit.sum_last_two 768 fun k : Fin 770 => val_main_v5 (F := Ideal) E P T Wd bd (ix2 r k) * W1 (ix2 k q)).trans ?_
  unfold transformed
  refine congrArg₂ (· + ·) (congrArg₂ (· + ·) ?_ ?_) ?_
  · refine Finset.sum_congr rfl fun k _ => congrArg (· * W1 (ix2 (top k) q)) ?_
    exact (features_top E P T Wd bd r k).trans (activation_apply E Wd bd r k)
  · exact congrArg (· * W1 (ix2 (⟨768, by decide⟩ : Fin 770) q)) (features_768 E P T Wd bd r)
  · exact congrArg (· * W1 (ix2 (⟨769, by decide⟩ : Fin 770) q)) (features_769 E P T Wd bd r)

/-- So the kernel's first region computes the reference's transformed features, as whole arrays. -/
theorem fused_eq_reference :
    Cert.KernelIdeal.Region0.fused E
        (truncf (F := Ideal) .bf16 (Wd : FVec Ideal S768x768 .f32) Cert.KernelIdeal.Gen.bitsLt_bf16_f32)
        (shapeCast S1x768 bd Cert.KernelIdeal.Gen.shapeCasts_S768_S1x768)
        (truncf (F := Ideal) .bf16 (extractStridedSlice Cert.KernelIdeal.S768x128 ![0, 0] W1 Cert.KernelIdeal.Gen.slices_S770x128_S768x128_0_0 : FVec Ideal Cert.KernelIdeal.S768x128 .f32) Cert.KernelIdeal.Gen.bitsLt_bf16_f32)
        (extractStridedSlice S1x128 ![768, 0] W1 Cert.KernelIdeal.Gen.slices_S770x128_S1x128_768_0)
        (extractStridedSlice S1x128 ![769, 0] W1 Cert.KernelIdeal.Gen.slices_S770x128_S1x128_769_0) P T
      = val_main_v38 (F := Ideal) E P T Wd bd W1 := by
  funext i
  obtain ⟨r, q, rfl⟩ : ∃ (r : Fin 100000) (q : Fin 128), i = ix2 r q := ⟨i 0, i 1, eq_ix2 i⟩
  exact (fused_eq E P T Wd bd W1 r q).trans (reference_eq E P T Wd bd W1 r q).symm

end

end Cert.FirstLayer

end
-- ==== Proof.SecondLayer.lean ====
/-
  The second layer's transform: padding the weights with columns that are then thrown away changes nothing.

  The kernel multiplies the hidden features by the 128 x 5 weight matrix padded on the right to 128 x 128, and keeps the
  first five columns of the product. Entry (r, j) of a product reads the right operand through its column j only, and for
  j < 5 column j of the padded matrix is column j of the matrix. So the kept columns are the product with the matrix
  itself, whatever value the padding holds; and the change of float format of the padded matrix is the identity on
  extended reals.
-/
import proofs.«174872_j45543833207355_2_alg».proof.Proof.Region1
import proofs.«174872_j45543833207355_2_alg».proof.Proof.LibPlainDot
import proofs.«174872_j45543833207355_2_alg».proof.Proof.Gen.ReferenceIdeal
import Idealize.ShloMosaic.Lib.KernelVsHost
import Idealize.ShloMosaic.Lib.ValueLayout
import Idealize.ShloMosaic.Lib.ValueIdx

noncomputable section

namespace Cert.SecondLayer

open Idealize.ShloMosaic Idealize.ShloMosaic.ValueIdx
open Cert.KernelIdeal Cert.KernelIdeal.Gen

/-- The reference's product contracts the hidden features' columns with the weights' rows and has no batch axis. -/
theorem plain_reference : Cert.PlainDot.IsPlain Cert.ReferenceIdeal.dot_S100000x128_S128x5_S100000x5_1_0_0_1_n_n :=
  ⟨rfl, rfl, rfl, rfl, rfl, rfl⟩

/-- The first five columns of (hidden features) x (weights padded to 128 columns) are (hidden features) x (weights). -/
theorem kept_columns (X : FVec Ideal S100000x128 .f32) (W : FVec Ideal S128x5 .f32) (v : FVec Ideal S_ .f32) :
    extractStridedSlice S100000x5 ![0, 0]
        (Cert.KernelIdeal.Region1.timesSquare X
          (truncf (F := Ideal) .bf16 (pad S128x128 ![0, 0] ![0, 123] ![0, 0] W v pads_S128x5_S128x128_000_01230 h_S_) bitsLt_bf16_f32))
        slices_S100000x128_S100000x5_0_0
      = Host.dotGeneral (F := Ideal) (φ₁ := .f32) (φ₂ := .f32)
          Cert.ReferenceIdeal.dot_S100000x128_S128x5_S100000x5_1_0_0_1_n_n none X W := by
  funext i
  obtain ⟨r, j, rfl⟩ : ∃ (r : Fin 100000) (j : Fin 5), i = ix2 r j := ⟨i 0, i 1, eq_ix2 i⟩
  have hj : j.val < 128 := Nat.lt_of_lt_of_le j.isLt (by decide)
  refine (slice2_axis1_apply 0 _ slices_S100000x128_S100000x5_0_0 r j ⟨j.val, hj⟩ (Nat.zero_add _).symm).trans ?_
  refine Eq.trans ?_ (Cert.PlainDot.dotGeneral_apply Cert.ReferenceIdeal.dot_S100000x128_S128x5_S100000x5_1_0_0_1_n_n
    plain_reference none X W r j).symm
  show ∑ k : Fin 128, X (ix2 r k)
        * pad S128x128 ![0, 0] ![0, 123] ![0, 0] W v pads_S128x5_S128x128_000_01230 h_S_ (ix2 k (⟨j.val, hj⟩ : Fin 128))
      = ∑ k : Fin 128, X (ix2 r k) * W (ix2 k j)
  refine Finset.sum_congr rfl fun k _ => congrArg (X (ix2 r k) * ·) ?_
  refine pad_apply_of_inside ![0, 0] ![0, 123] ![0, 0] W v pads_S128x5_S128x128_000_01230 h_S_
    (ix2 k (⟨j.val, hj⟩ : Fin 128)) (ix2 k j) fun a => ?_
  match a with
  | ⟨0, _⟩ => show k.val = 0 + k.val * (0 + 1); omega
  | ⟨1, _⟩ => show j.val = 0 + j.val * (0 + 1); omega

end Cert.SecondLayer

end
-- ==== Proof.HostTail.lean ====
/-
  From the second region to the return, and the kernel's result as one expression of the launch arrays.

  The second region multiplies the hidden features by the padded weights (Region1). After it the program keeps the first
  five columns of the product and runs the second round of message passing on them, with the same edge rows and
  coefficients as before, which no operation in between has touched. Put together with the earlier stretches, the result
  array is: the second round, of the kept columns of (the first round of the first region's result) times the padded
  weights. The kept columns are the product with the unpadded weights (SecondLayer), and the first region's result is the
  reference's transformed features (FirstLayer); so the result is the second round of the product of the first round of
  the reference's transformed features with the weights — which is, by unfolding, the reference's own result (Layers).
-/
import proofs.«174872_j45543833207355_2_alg».proof.Proof.HostMiddle
import proofs.«174872_j45543833207355_2_alg».proof.Proof.Region1
import proofs.«174872_j45543833207355_2_alg».proof.Proof.FirstLayer
import proofs.«174872_j45543833207355_2_alg».proof.Proof.SecondLayer
import Idealize.ShloMosaic.Lib.StableHlo.Run

set_option maxRecDepth 16384

noncomputable section

namespace Cert.KernelIdeal.HostTail

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-- At the second region's exit its result array is the hidden features times the padded weights. -/
theorem region1_result (c : Dev nD) :
    (W10 m ρ c (Proc.devRef .tc main_v59) : FVec Ideal S100000x128 .f32) = Cert.KernelIdeal.Region1.timesSquare (Cert.Layers.layer1 (W2 m ρ c (Proc.devRef .tc main_v6) : (⟨S100000x128, .bf16⟩ : BufTy).Contents (Elt Ideal)) (m ((c : Thread nD τ).loc main_arg3)) (m ((c : Thread nD τ).loc main_arg4)) (m ((c : Thread nD τ).loc main_arg8))) (truncf (F := Ideal) .bf16
        (pad S128x128 ![0, 0] ![0, 123] ![0, 0] (m ((c : Thread nD τ).loc main_arg9))
          (sitofp (F := Ideal) .f32 (constantI S_ 32 0#32)) pads_S128x5_S128x128_000_01230 h_S_) bitsLt_bf16_f32) := by
  refine (W10_arr m ρ c 2).trans ?_
  refine (Cert.KernelIdeal.Region1.result_array (V9 m ρ) c).trans ?_
  dsimp only [V9]
  rw [Cert.KernelIdeal.HostMiddle.c_v56 m ρ c, Cert.KernelIdeal.HostMiddle.c_v58 m ρ c]

/-! The second region touches none of the edge rows, the coefficients, or the last bias. -/
theorem d_v12 (c : Dev nD) : (W10 m ρ c (Proc.devRef .tc main_v12) : (⟨S1700000, .i32⟩ : BufTy).Contents (Elt Ideal)) = Cert.ReferenceIdeal.Read.val_main_v11 (F := Ideal) (m ((c : Thread nD τ).loc main_arg3)) :=
  (W10_of_ne m ρ c main_v12 (by decide)).trans (Cert.KernelIdeal.HostMiddle.c_v12 m ρ c)
theorem d_v13 (c : Dev nD) : (W10 m ρ c (Proc.devRef .tc main_v13) : (⟨S1700000, .i32⟩ : BufTy).Contents (Elt Ideal)) = Cert.ReferenceIdeal.Read.val_main_v12 (F := Ideal) (m ((c : Thread nD τ).loc main_arg3)) :=
  (W10_of_ne m ρ c main_v13 (by decide)).trans (Cert.KernelIdeal.HostMiddle.c_v13 m ρ c)
theorem d_v38 (c : Dev nD) : (W10 m ρ c (Proc.devRef .tc main_v38) : (⟨S1700000, .f32⟩ : BufTy).Contents (Elt Ideal)) = Cert.ReferenceIdeal.Read.val_main_v37 (F := Ideal) (m ((c : Thread nD τ).loc main_arg3)) (m ((c : Thread nD τ).loc main_arg4)) :=
  (W10_of_ne m ρ c main_v38 (by decide)).trans (Cert.KernelIdeal.HostMiddle.c_v38 m ρ c)
theorem d_arg10 (c : Dev nD) : (W10 m ρ c (Proc.devRef .tc main_arg10) : (⟨S5, .f32⟩ : BufTy).Contents (Elt Ideal)) = (m ((c : Thread nD τ).loc main_arg10)) :=
  (W10_of_ne m ρ c main_arg10 (by decide)).trans (Cert.KernelIdeal.HostMiddle.c_arg10 m ρ c)

set_option maxHeartbeats 2000000 in
/-- The result array at the return: the second round of the second region's kept columns. -/
theorem tail_read (c : Dev nD) : (W11 m ρ c (Proc.devRef .tc main_v76) : (⟨S100000x5, .f32⟩ : BufTy).Contents (Elt Ideal))
    = Cert.Layers.layer2 (extractStridedSlice S100000x5 ![0, 0] (W10 m ρ c (Proc.devRef .tc main_v59) : FVec Ideal S100000x128 .f32) slices_S100000x128_S100000x5_0_0)
        (m ((c : Thread nD τ).loc main_arg3)) (m ((c : Thread nD τ).loc main_arg4)) (m ((c : Thread nD τ).loc main_arg10)) := by
  dsimp only [W11, hostOps2]
  after_results
  rw [d_v12 m ρ c, d_v13 m ρ c, d_v38 m ρ c, d_arg10 m ρ c]
  rfl

/-- The kernel's result, as the reference's expression of the arrays the kernel was launched with. -/
theorem result_eq (c : Dev nD) : (W11 m ρ c (Proc.devRef .tc main_v76) : (⟨S100000x5, .f32⟩ : BufTy).Contents (Elt Ideal))
    = Cert.Layers.layer2
        (Host.dotGeneral (F := Ideal) (φ₁ := .f32) (φ₂ := .f32) Cert.ReferenceIdeal.dot_S100000x128_S128x5_S100000x5_1_0_0_1_n_n none
          (Cert.Layers.layer1 (Cert.ReferenceIdeal.Read.val_main_v38 (F := Ideal) (m ((c : Thread nD τ).loc main_arg0)) (m ((c : Thread nD τ).loc main_arg1)) (m ((c : Thread nD τ).loc main_arg2)) (m ((c : Thread nD τ).loc main_arg5)) (m ((c : Thread nD τ).loc main_arg6)) (m ((c : Thread nD τ).loc main_arg7))) (m ((c : Thread nD τ).loc main_arg3)) (m ((c : Thread nD τ).loc main_arg4)) (m ((c : Thread nD τ).loc main_arg8))) (m ((c : Thread nD τ).loc main_arg9)))
        (m ((c : Thread nD τ).loc main_arg3)) (m ((c : Thread nD τ).loc main_arg4)) (m ((c : Thread nD τ).loc main_arg10)) := by
  rw [tail_read m ρ c, region1_result m ρ c, Cert.SecondLayer.kept_columns,
    Cert.KernelIdeal.HostEntry.region0_result m ρ c, Cert.FirstLayer.fused_eq_reference]

end Cert.KernelIdeal.HostTail

end
-- ==== Proof.lean ====
/-
  The proof of `Cert.Claim` for a two-layer graph convolution: a Pallas kernel of two grid regions among host operations,
  against its jnp reference, as extended reals.

  The reference computes tanh (E · Wd + bd), concatenates the two side features, multiplies by W1, runs a round of
  message passing (normalised adjacency with self loops of weight 2), adds b1, takes the positive part, multiplies by W2,
  runs a second round and adds b2. The kernel's first region fuses the dense layer with the product by W1, never forming
  the concatenation (it adds W1's last two rows scaled by the side features); its second region multiplies by W2 padded
  to 128 columns, of which five are kept; everything else it does on the host exactly as the reference does.

  On extended reals the two agree without any use of finiteness: the first region's array is the reference's product over
  the concatenated axis because a sum over 770 indices is the sum over the first 768 plus the last two terms; the kept
  columns of the padded product are the unpadded product; changes of float format are the identity; the two tanh are one
  function; a product into a zero accumulator is the host's product. Both results are then the same two rounds of message
  passing applied to the same arrays.

  The three frame claims are the generated frame certificates (the reference's is its generated run with the result
  dropped); the idealisation rewrote nothing, so `preserves` is trivial.
-/
import proofs.«174872_j45543833207355_2_alg».proof.Defs
import proofs.«174872_j45543833207355_2_alg».proof.Proof.Gen.Kernel
import proofs.«174872_j45543833207355_2_alg».proof.Proof.Gen.Kernel.Frame
import proofs.«174872_j45543833207355_2_alg».proof.Proof.Gen.KernelIdeal
import proofs.«174872_j45543833207355_2_alg».proof.Proof.Gen.KernelIdeal.Frame
import proofs.«174872_j45543833207355_2_alg».proof.Proof.Gen.ReferenceIdeal
import proofs.«174872_j45543833207355_2_alg».proof.Proof.Gen.ReferenceIdeal.Run
import proofs.«174872_j45543833207355_2_alg».proof.Proof.Gen.ReferenceIdeal.Read
import proofs.«174872_j45543833207355_2_alg».proof.Proof.Gen.Pre_finite_inputs
import proofs.«174872_j45543833207355_2_alg».proof.Proof.KernelRun
import proofs.«174872_j45543833207355_2_alg».proof.Proof.HostTail
import proofs.«174872_j45543833207355_2_alg».proof.Proof.Layers
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The idealised kernel is the kernel's own text read on extended reals: no operation was rewritten. -/
theorem preserves : Cert.preserves_Kernel_KernelIdeal := trivial

/-- Both programs end with the second round of message passing of (the first round of the transformed features) times
    the second layer's weights, the kernel by its two regions' arrays and the reference by unfolding its stages. -/
theorem algebraic : Cert.algebraic_KernelIdeal_ReferenceIdeal := by
  intro m ρ m' ρ' _ hagree
  refine ⟨fun c => Cert.Layers.layer2
        (Host.dotGeneral (F := Ideal) (φ₁ := .f32) (φ₂ := .f32) Cert.ReferenceIdeal.dot_S100000x128_S128x5_S100000x5_1_0_0_1_n_n none
          (Cert.Layers.layer1 (Cert.ReferenceIdeal.Read.val_main_v38 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg8))) (m ((c.tc : Thread Cert.KernelIdeal.nD Cert.KernelIdeal.τ).loc Cert.KernelIdeal.main_arg9)))
        (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg10)), ?_, ?_⟩
  · exact (θ_run Cert.KernelIdeal.defs _ _).mono (fun r h c => ⟨(h c).1.trans (Cert.KernelIdeal.HostTail.result_eq m ρ c), (h c).2⟩)
      (Cert.KernelIdeal.RunValue.run_result (F := Ideal) m ρ)
  · refine (θ_run Cert.ReferenceIdeal.defs _ _).mono (fun r h c => ⟨(h c).1.trans ?_, (h c).2⟩) (Cert.ReferenceIdeal.Value.run (F := Ideal) m' ρ')
    obtain ⟨h0, h1, h2, h3, h4, h5, h6, h7, h8, h9, h10⟩ := hagree c
    rw [Cert.ReferenceIdeal.Read.val_main_v72_eq, Cert.Layers.reference_layer2, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
